-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2048x1024 : Shape := ⟨2, ![2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S2x2048x1024 .f32) (main_arg1 : FVec F S2048x1024 .f32) (main_arg2 : FVec F S1024x1024 .f32) (main_arg3 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S2x2048x1024 : Shape := ⟨3, ![2, 2048, 1024]⟩
abbrev S2048x1024 : Shape := ⟨2, ![2048, 1024]⟩
abbrev S1024x1024 : Shape := ⟨2, ![1024, 1024]⟩
abbrev S1024 : Shape := ⟨1, ![1024]⟩
abbrev S64x2x16x1024 : Shape := ⟨4, ![64, 2, 16, 1024]⟩
abbrev S2x16x64x1024 : Shape := ⟨4, ![2, 16, 64, 1024]⟩
abbrev S1024x2048 : Shape := ⟨2, ![1024, 2048]⟩
abbrev S4096x1024 : Shape := ⟨2, ![4096, 1024]⟩
abbrev S4096x2048 : Shape := ⟨2, ![4096, 2048]⟩
abbrev S2x2048x2048 : Shape := ⟨3, ![2, 2048, 2048]⟩
abbrev S1x256x128 : Shape := ⟨3, ![1, 256, 128]⟩
abbrev S1x2048x128 : Shape := ⟨3, ![1, 2048, 128]⟩
abbrev S256x128 : Shape := ⟨2, ![256, 128]⟩
abbrev S2048x128 : Shape := ⟨2, ![2048, 128]⟩
abbrev S256x64 : Shape := ⟨2, ![256, 64]⟩
abbrev S2048x64 : Shape := ⟨2, ![2048, 64]⟩
abbrev S256 : Shape := ⟨1, ![256]⟩
abbrev S256x1 : Shape := ⟨2, ![256, 1]⟩
abbrev S2048 : Shape := ⟨1, ![2048]⟩
abbrev S2048x1 : Shape := ⟨2, ![2048, 1]⟩
abbrev S1x2048 : Shape := ⟨2, ![1, 2048]⟩
abbrev S256x2048 : Shape := ⟨2, ![256, 2048]⟩
abbrev S1x256x64 : Shape := ⟨3, ![1, 256, 64]⟩
abbrev S1x1024 : Shape := ⟨2, ![1, 1024]⟩

abbrev nBuf : Space → Nat
  | .hbm => 20
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S2048x1024, .f32⟩
  | .hbm, ⟨2, _⟩ => ⟨S1024x1024, .f32⟩
  | .hbm, ⟨3, _⟩ => ⟨S1024, .f32⟩
  | .hbm, ⟨4, _⟩ => ⟨S64x2x16x1024, .f32⟩
  | .hbm, ⟨5, _⟩ => ⟨S2x16x64x1024, .f32⟩
  | .hbm, ⟨6, _⟩ => ⟨S2048x1024, .f32⟩
  | .hbm, ⟨7, _⟩ => ⟨S1024x2048, .f32⟩
  | .hbm, ⟨8, _⟩ => ⟨S1024x2048, .bf16⟩
  | .hbm, ⟨9, _⟩ => ⟨S4096x1024, .f32⟩
  | .hbm, ⟨10, _⟩ => ⟨S4096x1024, .bf16⟩
  | .hbm, ⟨11, _⟩ => ⟨S4096x2048, .bf16⟩
  | .hbm, ⟨12, _⟩ => ⟨S2x2048x2048, .bf16⟩
  | .hbm, ⟨13, _⟩ => ⟨S2x2048x1024, .bf16⟩
  | .hbm, ⟨14, _⟩ => ⟨S4096x1024, .bf16⟩
  | .hbm, ⟨15, _⟩ => ⟨S1024x1024, .f32⟩
  | .hbm, ⟨16, _⟩ => ⟨S1024x1024, .bf16⟩
  | .hbm, ⟨17, _⟩ => ⟨S1x1024, .f32⟩
  | .hbm, ⟨18, _⟩ => ⟨S4096x1024, .f32⟩
  | .hbm, ⟨19, _⟩ => ⟨S2x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1x256x128, .bf16⟩
  | .local _ .vmem, ⟨6, _⟩ => ⟨S1x256x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x256x128, .bf16⟩
  | .local _ .vmem, ⟨12, _⟩ => ⟨S1x256x128, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![2, 8, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg1 c8_i32
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2048x1024_S64x2x16x1024 : S2048x1024.ShapeCasts S64x2x16x1024
  transposes_S64x2x16x1024_S2x16x64x1024_1_2_0_3 : S64x2x16x1024.Transposes [1, 2, 0, 3] S2x16x64x1024
  shapeCasts_S2x16x64x1024_S2048x1024 : S2x16x64x1024.ShapeCasts S2048x1024
  transposes_S2048x1024_S1024x2048_1_0 : S2048x1024.Transposes [1, 0] S1024x2048
  bitsLt_bf16_f32 : FTy.bits .bf16 < FTy.bits .f32
  shapeCasts_S2x2048x1024_S4096x1024 : S2x2048x1024.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  packedbf16_S1024x2048_S1024x2048_0_0 : (Rect.unit (s := S1024x2048) ![0, 0] S1024x2048.size inb_S1024x2048_S1024x2048_0_0).PackedRows (EltTy.packing .bf16)
  shapeCasts_S4096x2048_S2x2048x2048 : S4096x2048.ShapeCasts S2x2048x2048
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S256x128_o0_0_S256x64 : S256x128.Slices ![0, 0] S256x64
  slices_S2048x128_o0_0_S2048x64 : S2048x128.Slices ![0, 0] S2048x64
  reduces_S256x64_S256 : S256x64.Reduces [1] S256
  shapeCasts_S256_S256x1 : S256.ShapeCasts S256x1
  reduces_S2048x64_S2048 : S2048x64.Reduces [1] S2048
  shapeCasts_S2048_S2048x1 : S2048.ShapeCasts S2048x1
  transposes_S2048x1_p1_0_S1x2048 : S2048x1.Transposes [1, 0] S1x2048
  broadcasts_S256x1_S256x2048 : S256x1.Broadcasts S256x2048
  broadcasts_S1x2048_S256x2048 : S1x2048.Broadcasts S256x2048
  reduces_S256x2048_S256 : S256x2048.Reduces [1] S256
  inb_S1x256x128_S1x256x64_0_0_0 : ∀ a, (![0, 0, 0] : Fin 3 → Nat) a + S1x256x64.size a ≤ S1x256x128.size a
  h_S1x256x64 : 0 < S1x256x64.numel
  shapeCasts_S1x256x64_S256x64 : S1x256x64.ShapeCasts S256x64
  shapeCasts_S256x64_S1x256x64 : S256x64.ShapeCasts S1x256x64
  packedbf16_S1x256x128_S1x256x64_0_0_0 : (Rect.unit (s := S1x256x128) ![0, 0, 0] S1x256x64.size inb_S1x256x128_S1x256x64_0_0_0).PackedRows (EltTy.packing .bf16)
  slices_S256x128_o0_64_S256x64 : S256x128.Slices ![0, 64] S256x64
  slices_S2048x128_o0_64_S2048x64 : S2048x128.Slices ![0, 64] S2048x64
  inb_S1x256x128_S1x256x64_0_0_64 : ∀ a, (![0, 0, 64] : Fin 3 → Nat) a + S1x256x64.size a ≤ S1x256x128.size a
  packedbf16_S1x256x128_S1x256x64_0_0_64 : (Rect.unit (s := S1x256x128) ![0, 0, 64] S1x256x64.size inb_S1x256x128_S1x256x64_0_0_64).PackedRows (EltTy.packing .bf16)
  transposes_S1024x1024_S1024x1024_1_0 : S1024x1024.Transposes [1, 0] S1024x1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S4096x1024_S2x2048x1024 : S4096x1024.ShapeCasts S2x2048x1024
  dot_S1024x1024_S1024x2048_S1024x2048_1_0_0_1_n_n_wf : DotDims.WF S1024x1024 S1024x2048 S1024x2048 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S4096x2048.size a
  hwx0_2 : ∀ i : grid0.Coords, EltTy.bits .bf16 = 32 ∨ (Rect.block (s := S4096x2048) S1024x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x128.size a ≤ S2x2048x2048.size a
  hwx1_0 : ∀ i : grid1.Coords, EltTy.bits .bf16 = 32 ∨ (Rect.block (s := S2x2048x2048) S1x256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S2x2048x2048.size a
  hwx1_1 : ∀ i : grid1.Coords, EltTy.bits .bf16 = 32 ∨ (Rect.block (s := S2x2048x2048) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S2x2048x2048.size a
  hwx1_2 : ∀ i : grid1.Coords, EltTy.bits .bf16 = 32 ∨ (Rect.block (s := S2x2048x2048) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x128.size a ≤ S2x2048x1024.size a
  hwx1_3 : ∀ i : grid1.Coords, EltTy.bits .bf16 = 32 ∨ (Rect.block (s := S2x2048x1024) S1x256x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .bf16 = 32 ∨ (Rect.block (s := S4096x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .f32 = 32 ∨ (Rect.block (s := S4096x1024) S1024x1024.size (cc2_transform_3 i) (hinb2_3 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v6) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S1x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S2048x1024 : Shape := ⟨2, ![2048, 1024]⟩
abbrev S1024x1024 : Shape := ⟨2, ![1024, 1024]⟩
abbrev S1024 : Shape := ⟨1, ![1024]⟩
abbrev S2x2048x2048 : Shape := ⟨3, ![2, 2048, 2048]⟩
abbrev S2x2048x64x2x16 : Shape := ⟨5, ![2, 2048, 64, 2, 16]⟩
abbrev S2x2048x64x1x16 : Shape := ⟨5, ![2, 2048, 64, 1, 16]⟩
abbrev S2x2048x64x16 : Shape := ⟨4, ![2, 2048, 64, 16]⟩
abbrev S2x16x2048x64 : Shape := ⟨4, ![2, 16, 2048, 64]⟩
abbrev S_ : Shape := ⟨0, ![]⟩
abbrev S2x16x2048 : Shape := ⟨3, ![2, 16, 2048]⟩
abbrev S2x16x2048x2048 : Shape := ⟨4, ![2, 16, 2048, 2048]⟩
abbrev S2x16x2048x1 : Shape := ⟨4, ![2, 16, 2048, 1]⟩
abbrev S2x16x1x2048 : Shape := ⟨4, ![2, 16, 1, 2048]⟩
abbrev S2x2048x16x64 : Shape := ⟨4, ![2, 2048, 16, 64]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2048x1024, .f32⟩
  | .hbm, ⟨2, _⟩ => ⟨S1024x1024, .f32⟩
  | .hbm, ⟨3, _⟩ => ⟨S1024, .f32⟩
  | .hbm, ⟨4, _⟩ => ⟨S2x2048x2048, .f32⟩
  | .hbm, ⟨5, _⟩ => ⟨S2x2048x64x2x16, .f32⟩
  | .hbm, ⟨6, _⟩ => ⟨S2x2048x64x1x16, .f32⟩
  | .hbm, ⟨7, _⟩ => ⟨S2x2048x64x16, .f32⟩
  | .hbm, ⟨8, _⟩ => ⟨S2x16x2048x64, .f32⟩
  | .hbm, ⟨9, _⟩ => ⟨S2x2048x64x1x16, .f32⟩
  | .hbm, ⟨10, _⟩ => ⟨S2x2048x64x16, .f32⟩
  | .hbm, ⟨11, _⟩ => ⟨S2x16x2048x64, .f32⟩
  | .hbm, ⟨12, _⟩ => ⟨S2x16x2048x64, .f32⟩
  | .hbm, ⟨13, _⟩ => ⟨S_, .f32⟩
  | .hbm, ⟨14, _⟩ => ⟨S2x16x2048, .f32⟩
  | .hbm, ⟨15, _⟩ => ⟨S2x16x2048x2048, .f32⟩
  | .hbm, ⟨16, _⟩ => ⟨S2x16x2048x1, .f32⟩
  | .hbm, ⟨17, _⟩ => ⟨S2x16x1x2048, .f32⟩
  | .hbm, ⟨18, _⟩ => ⟨S2x16x2048x2048, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048x2048, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048x2048, .f32⟩
  | .hbm, ⟨28, _⟩ => ⟨S2x16x2048x2048, .f32⟩
  | .hbm, ⟨29, _⟩ => ⟨S_, .f32⟩
  | .hbm, ⟨30, _⟩ => ⟨S2x16x2048, .f32⟩
  | .hbm, ⟨31, _⟩ => ⟨S_, .f32⟩
  | .hbm, ⟨32, _⟩ => ⟨S2x16x2048, .f32⟩
  | .hbm, ⟨33, _⟩ => ⟨S2x16x2048, .f32⟩
  | .hbm, ⟨34, _⟩ => ⟨S2x16x2048x1, .f32⟩
  | .hbm, ⟨35, _⟩ => ⟨S2x16x2048x2048, .f32⟩
  | .hbm, ⟨36, _⟩ => ⟨S2x16x2048x2048, .f32⟩
  | .hbm, ⟨37, _⟩ => ⟨S2x16x2048x2048, .f32⟩
  | .hbm, ⟨38, _⟩ => ⟨S_, .f32⟩
  | .hbm, ⟨39, _⟩ => ⟨S2x16x2048, .f32⟩
  | .hbm, ⟨40, _⟩ => ⟨S2x16x2048x1, .f32⟩
  | .hbm, ⟨41, _⟩ => ⟨S2x16x2048x2048, .f32⟩
  | .hbm, ⟨42, _⟩ => ⟨S2x16x2048x2048, .f32⟩
  | .hbm, ⟨43, _⟩ => ⟨S2x16x2048x64, .f32⟩
  | .hbm, ⟨44, _⟩ => ⟨S2x2048x16x64, .f32⟩
  | .hbm, ⟨45, _⟩ => ⟨S2x2048x1024, .f32⟩
  | .hbm, ⟨46, _⟩ => ⟨S2x2048x1024, .f32⟩
  | .hbm, ⟨47, _⟩ => ⟨S1x1x1024, .f32⟩
  | .hbm, ⟨48, _⟩ => ⟨S2x2048x1024, .f32⟩
  | .hbm, ⟨49, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]

class Facts₀ : Prop where
  shapeCasts_S2x2048x2048_S2x2048x64x2x16 : S2x2048x2048.ShapeCasts S2x2048x64x2x16
  slices_S2x2048x64x2x16_S2x2048x64x1x16_0_0_0_0_0 : S2x2048x64x2x16.Slices ![0, 0, 0, 0, 0] S2x2048x64x1x16
  shapeCasts_S2x2048x64x1x16_S2x2048x64x16 : S2x2048x64x1x16.ShapeCasts S2x2048x64x16
  transposes_S2x2048x64x16_S2x16x2048x64_0_3_1_2 : S2x2048x64x16.Transposes [0, 3, 1, 2] S2x16x2048x64
  slices_S2x2048x64x2x16_S2x2048x64x1x16_0_0_0_1_0 : S2x2048x64x2x16.Slices ![0, 0, 0, 1, 0] S2x2048x64x1x16
  reducesTo_S2x16x2048x64_S2x16x2048_d3 : S2x16x2048x64.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S2x16x2048_S2x16x1x2048_0_1_3 : S2x16x2048.BroadcastsInDim S2x16x1x2048 (![0, 1, 3] : Fin 3 → Fin S2x16x1x2048.rank)
  bcast_S2x16x2048x1_S2x16x2048x2048_0_1_2_3 : S2x16x2048x1.BroadcastsInDim S2x16x2048x2048 (![0, 1, 2, 3] : Fin 4 → Fin S2x16x2048x2048.rank)
  bcast_S2x16x1x2048_S2x16x2048x2048_0_1_2_3 : S2x16x1x2048.BroadcastsInDim S2x16x2048x2048 (![0, 1, 2, 3] : Fin 4 → Fin S2x16x2048x2048.rank)
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  bcast_S_S2x16x2048 : S_.BroadcastsInDim S2x16x2048 (![] : Fin 0 → Fin S2x16x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S2048x1024_S2x2048x2048_2_1_01_0_n_n_wf : DotDims.WF S2x2048x1024 S2048x1024 S2x2048x2048 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S2048x1024_S2x2048x2048_2_1_01_0_n_n : DotDims S2x2048x1024 S2048x1024 S2x2048x2048 where
  lhsContracting := [2]
  rhsContracting := [1]
  lhsNonContracting := [0, 1]
  rhsNonContracting := [0]
  lhsBatch := []
  rhsBatch := []
  wf := dot_S2x2048x1024_S2048x1024_S2x2048x2048_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.KI.Reg0.lean ====
/-
  The first kernel: the projection, a matrix product.  Its grid has four points; point t reads rows
  1024·t … 1024·t + 1023 of the left factor and the whole right factor, and writes their product, rounded to the
  narrower float format, into the same rows of the result.  This module names what the body leaves in its output
  buffer as one term of the two blocks it reads, proves that the body does leave it, and assembles the per-point
  facts the pipeline's frame rule asks for: at every grid point each input buffer holds its block, and after the
  body the output buffer holds that term.  Everything here holds at any float instance.
-/
import proofs.«154070_j61375082660372_2_alg».proof.Proof.Gen.KernelIdeal.Launch
import proofs.«154070_j61375082660372_2_alg».proof.Proof.Gen.KernelIdeal.Skeleton
import proofs.«154070_j61375082660372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the first matrix product `x · w`, one block of 1024 rows per grid point -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows of the left factor) holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole right factor, whose block index never moves) holds its block at every point, whether
    or not it was fetched there: unfetched, the index has not moved and the buffer still holds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 1024×1024 buffer. -/
abbrev r0_0 : Rect S1024x1024 := Rect.unit (s := S1024x1024) ![0, 0] S1024x1024.size inb_S1024x1024_S1024x1024_0_0
/-- The whole 1024×2048 buffer. -/
abbrev r0_1 : Rect S1024x2048 := Rect.unit (s := S1024x2048) ![0, 0] S1024x2048.size inb_S1024x2048_S1024x2048_0_0

/-! ## What the body leaves in the output window's buffer -/

/-- Window 2's buffer after the body, from the input windows' blocks: one store of the whole buffer, whose value is
    the product of the two loaded blocks rounded to bf16. -/
def out0_2 (x0 : Vec F S1024x1024 .bf16) (x1 : Vec F S1024x2048 .bf16) : Vec F S1024x2048 .bf16 :=
  View.canon [⟨r0_1, k0_pay1 (View.ld x0 r0_0) (View.ld x1 r0_1)⟩]

/-- The one store covers the buffer. -/
theorem cover0_2 (p0 : Vec F S1024x2048 .bf16) (y : S1024x2048.Idx) :
    ∃ pc ∈ ([⟨r0_1, p0⟩] : List (View.Piece (Elt F) S1024x2048 .bf16)), y ∈ pc.1.set :=
  View.cover_of_tiled [⟨r0_1, p0⟩] S1024x2048.size (by rfl) y

/-! ## The body's triple -/

set_option maxHeartbeats 1000000 in
/-- The body on whole staging buffers, the inputs' at read contents `x0`, `x1` and the output's at anything, runs to
    the continuation holding the inputs' as they were and the output's at `out0_2 x0 x1`. The body also loads the
    output buffer before it stores; that value is not used. -/
theorem sound_kernel0 (c : Dev nD) (E : Set ℕ) (i : grid0.Coords) (arg0 : Memref sig .tc .vmem S1024x1024 .bf16) (harg0 : arg0.IsWhole) (arg1 : Memref sig .tc .vmem S1024x2048 .bf16) (harg1 : arg1.IsWhole) (arg2 : Memref sig .tc .vmem S1024x2048 .bf16) (harg2 : arg2.IsWhole)
    (x0 : Vec F S1024x1024 .bf16) (x1 : Vec F S1024x2048 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__mm_kernel i arg0 harg0 arg1 harg1 arg2 harg2) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input's buffer at its block and the output's at `out0_2` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The attention region of the program: the kernel body on its 2×8×8 grid, as one step of the block pipeline.

  Three input windows read one array (a 256-row query tile, and the 2048-row key and value strips, which move only when
  the head pair changes), and one output window is written back at every point. This module states what the body leaves
  in the output block as a function of the three input blocks — two stores, one per 64-column half —, shows that the body
  run on the staging buffers leaves exactly that, and assembles the per-point obligation of the pipeline from it. Nothing
  here depends on the float instance.
-/
import proofs.«154070_j61375082660372_2_alg».proof.Proof.Gen.KernelIdeal.Launch
import proofs.«154070_j61375082660372_2_alg».proof.Proof.Gen.KernelIdeal.Skeleton
import proofs.«154070_j61375082660372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! # The attention region: the kernel `cc1__l2_attn_kernel` on its 2×8×8 grid, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window is fetched only when its block index moves (every eighth point); in between the body leaves the
    block in place, so the buffer holds the block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the value window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole query block, the whole key / value block, and the two column halves of the output block. -/
abbrev r1_q : Rect S1x256x128 := Rect.unit (s := S1x256x128) ![0, 0, 0] S1x256x128.size inb_S1x256x128_S1x256x128_0_0_0
abbrev r1_kv : Rect S1x2048x128 := Rect.unit (s := S1x2048x128) ![0, 0, 0] S1x2048x128.size inb_S1x2048x128_S1x2048x128_0_0_0
abbrev r1_lo : Rect S1x256x128 := Rect.unit (s := S1x256x128) ![0, 0, 0] S1x256x64.size inb_S1x256x128_S1x256x64_0_0_0
abbrev r1_hi : Rect S1x256x128 := Rect.unit (s := S1x256x128) ![0, 0, 64] S1x256x64.size inb_S1x256x128_S1x256x64_0_0_64

/-- The output block after the body: columns 64–127 hold the second head's rows, columns 0–63 the first head's
    (the later store listed first). -/
def out1_3 (x0 : Vec F S1x256x128 .bf16) (x1 x2 : Vec F S1x2048x128 .bf16) : Vec F S1x256x128 .bf16 :=
  View.canon [⟨r1_hi, k1_pay2 (k1_pay3 (View.ld x0 r1_q)) (k1_pay4 (View.ld x1 r1_kv)) (k1_pay5 (View.ld x2 r1_kv))⟩,
    ⟨r1_lo, k1_pay1 (k1_pay6 (View.ld x0 r1_q) (View.ld x1 r1_kv) (View.ld x2 r1_kv))⟩]

/-- The two column halves tile the output block, so they cover it. -/
theorem cover1_3 (p0 p1 : Vec F S1x256x64 .bf16) (y : S1x256x128.Idx) :
    ∃ pc ∈ ([⟨r1_hi, p0⟩, ⟨r1_lo, p1⟩] : List (View.Piece (Elt F) S1x256x128 .bf16)), y ∈ pc.1.set :=
  View.cover_of_tiled [⟨r1_hi, p0⟩, ⟨r1_lo, p1⟩] S1x256x64.size (by rfl) y

/-! ## The body's triple -/

set_option maxHeartbeats 1000000 in
/-- The kernel body on whole staging memrefs, the three inputs' at read contents `x0`, `x1`, `x2` and the output's at
    anything, runs to the continuation holding the inputs' as they were and the output's at `out1_3` of the inputs'.
    The body also loads each half of the output block before it stores there; what those loads return is not used. -/
theorem sound_kernel1 (c : Dev nD) (E : Set ℕ) (i : grid1.Coords) (arg0 : Memref sig .tc .vmem S1x256x128 .bf16) (harg0 : arg0.IsWhole)
    (arg1 : Memref sig .tc .vmem S1x2048x128 .bf16) (harg1 : arg1.IsWhole) (arg2 : Memref sig .tc .vmem S1x2048x128 .bf16) (harg2 : arg2.IsWhole)
    (arg3 : Memref sig .tc .vmem S1x256x128 .bf16) (harg3 : arg3.IsWhole)
    (x0 : Vec F S1x256x128 .bf16) (x1 x2 : Vec F S1x2048x128 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__l2_attn_kernel i arg0 harg0 arg1 harg1 arg2 harg2 arg3 harg3) K := by
  simp only [cc1__l2_attn_kernel_eq_skeleton]; unfold cc1__l2_attn_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-! ## The pipeline's data -/

/-- The data of the attention pipeline on core `c`: the arrays as the region finds them; after the body at point
    `t` each input's buffer at its block and the output's at `out1_3` of the input blocks. The three input windows read
    one array, so they hold disjoint parts of its share; the output array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => (fullShare : PosShare TreeShare).left
    | ⟨1, _⟩ => (fullShare : PosShare TreeShare).right.left
    | ⟨2, _⟩ => (fullShare : PosShare TreeShare).right.right
    | ⟨3, _⟩ => fullShare
  owed _ := 0

/-- Its arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the attention pipeline, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Reg2.lean ====
/-
  The last kernel: the output projection, a matrix product plus a bias row.  Its grid has four points; point t reads
  rows 1024·t … 1024·t + 1023 of the left factor, the whole right factor and the whole bias row, and writes the
  product with the bias row added to each of its rows into the same rows of the result.  This module names what the
  body leaves in its output buffer as one term of the three blocks it reads, proves that the body does leave it, and
  assembles the per-point facts the pipeline's frame rule asks for: at every grid point each input buffer holds its
  block, and after the body the output buffer holds that term.  Everything here holds at any float instance.
-/
import proofs.«154070_j61375082660372_2_alg».proof.Proof.Gen.KernelIdeal.Launch
import proofs.«154070_j61375082660372_2_alg».proof.Proof.Gen.KernelIdeal.Skeleton
import proofs.«154070_j61375082660372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: the last matrix product with bias, `a · w + b`, one block of 1024 rows per grid point -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the rows of the left factor) holds its block at every point, for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole right factor, whose block index never moves) holds its block at every point, whether
    or not it was fetched there: unfetched, the index has not moved and the buffer still holds the same block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the whole bias row, whose block index never moves) likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 1024×1024 buffer. -/
abbrev r2_0 : Rect S1024x1024 := Rect.unit (s := S1024x1024) ![0, 0] S1024x1024.size inb_S1024x1024_S1024x1024_0_0
/-- The whole 1×1024 buffer. -/
abbrev r2_2 : Rect S1x1024 := Rect.unit (s := S1x1024) ![0, 0] S1x1024.size inb_S1x1024_S1x1024_0_0

/-! ## What the body leaves in the output window's buffer -/

/-- Window 3's buffer after the body, from the input windows' blocks: one store of the whole buffer, whose value is
    the product of the two loaded blocks plus the bias row broadcast down the rows. -/
def out2_3 (x0 : Vec F S1024x1024 .bf16) (x1 : Vec F S1024x1024 .bf16) (x2 : Vec F S1x1024 .f32) : Vec F S1024x1024 .f32 :=
  View.canon [⟨r2_0, k2_pay1 (View.ld x0 r2_0) (View.ld x1 r2_0) (View.ld x2 r2_2)⟩]

/-- The one store covers the buffer. -/
theorem cover2_3 (p0 : Vec F S1024x1024 .f32) (y : S1024x1024.Idx) :
    ∃ pc ∈ ([⟨r2_0, p0⟩] : List (View.Piece (Elt F) S1024x1024 .f32)), y ∈ pc.1.set :=
  View.cover_of_tiled [⟨r2_0, p0⟩] S1024x1024.size (by rfl) y

/-! ## The body's triple -/

set_option maxHeartbeats 1000000 in
/-- The body on whole staging buffers, the inputs' at read contents `x0`, `x1`, `x2` and the output's at anything,
    runs to the continuation holding the inputs' as they were and the output's at `out2_3 x0 x1 x2`. The body also
    loads the output buffer before it stores; that value is not used. -/
theorem sound_kernel2 (c : Dev nD) (E : Set ℕ) (i : grid2.Coords) (arg0 : Memref sig .tc .vmem S1024x1024 .bf16) (harg0 : arg0.IsWhole) (arg1 : Memref sig .tc .vmem S1024x1024 .bf16) (harg1 : arg1.IsWhole) (arg2 : Memref sig .tc .vmem S1x1024 .f32) (harg2 : arg2.IsWhole) (arg3 : Memref sig .tc .vmem S1024x1024 .f32) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__mm_bias_kernel i arg0 harg0 arg1 harg1 arg2 harg2 arg3 harg3) K := by
  simp only [cc2__mm_bias_kernel_eq_skeleton]; unfold cc2__mm_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them; after the body at point `t` each
    input's buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The whole program run once, at any float instance.

  The program is seven items in a row: host operations, the projection kernel, a reshape, the attention kernel,
  host operations, the output-projection kernel, a reshape.  Between two items every unscoped buffer of a core holds
  known contents: the launch memory, then each host stretch applied, then — after a kernel — that kernel's output
  array at what its grid's write-backs leave and every other buffer as it was.  Each kernel region is entered from
  those contents and left at the next; the attention kernel reads ONE array through three windows, so on entry that
  array is split into three complementary shares, one per window, and on exit the shares are joined again.
  The result: every execution ends, nothing faults, and every unscoped buffer ends at the last contents of the chain.
-/
import proofs.«154070_j61375082660372_2_alg».proof.Proof.KI.Reg0
import proofs.«154070_j61375082660372_2_alg».proof.Proof.KI.Reg1
import proofs.«154070_j61375082660372_2_alg».proof.Proof.KI.Reg2
import proofs.«154070_j61375082660372_2_alg».proof.Proof.Gen.KernelIdeal.Regions
import proofs.«154070_j61375082660372_2_alg».proof.Proof.Gen.KernelIdeal.Launch
import proofs.«154070_j61375082660372_2_alg».proof.Proof.Gen.KernelIdeal.Skeleton
import proofs.«154070_j61375082660372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the seven items of the program -/

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Function.update (W3 m c) (Proc.devRef .tc main_v9) ((dat1 (V3 m) c).arrAt 3 cfg1.N)
abbrev V4 : (c : Dev nD) → (b : Ref sig .tc) → Buf (Elt F) ((c : Thread nD τ).loc b) := fun c b => W4 m c b
theorem W4_out (c : Dev nD) : W4 m c (Proc.devRef .tc main_v9) = (dat1 (V3 m) c).arrAt 3 cfg1.N := by
  unfold W4; exact Function.update_self ..
theorem W4_of_ne (c : Dev nD) (b : Ref sig .tc) (hb : b ≠ main_v9) :
    W4 m c (Proc.devRef .tc b) = W3 m c (Proc.devRef .tc b) := by
  unfold W4; exact Function.update_of_ne (StableHlo.devRef_ne_of_ne hb) ..

abbrev W5 : Dev nD → Valuation τ sig (Elt F) := fun c => StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
abbrev W7 : Dev nD → Valuation τ sig (Elt F) := fun c => StableHlo.after hostOps3 (W6 m c)

/-! ## The proof data of the three pipelines and what rides beside the buffers -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

section R1
variable (V : (c : Dev nD) → (b : Ref sig .tc) → Buf (Elt F) ((c : Thread nD τ).loc b))
/-- The attention pipeline's arrays: its three input windows read ONE array, each holding a third share of it; its
    output window holds its own array outright. -/
theorem arrays1_eq (c : Dev nD) (n : Nat) :
    ((dat1 (F := F) V c).arrays ((dat1 V c).arrAt · n) : sProp 𝕄)
      = iprop((((c : Thread nD τ).loc main_v8) ↦{(fullShare : PosShare TreeShare).left} V c main_v8)
          ∗ (((c : Thread nD τ).loc main_v8) ↦{(fullShare : PosShare TreeShare).right.left} V c main_v8)
          ∗ (((c : Thread nD τ).loc main_v8) ↦{(fullShare : PosShare TreeShare).right.right} V c main_v8)
          ∗ (((c : Thread nD τ).loc main_v9) ↦{fullShare} (dat1 V c).arrAt 3 n)) := by
  unfold Dat.arrays
  rw [bigSep_W1]
  dsimp only
  rw [(dat1 V c).arrAt_in 0 rfl n, (dat1 V c).arrAt_in 1 rfl n, (dat1 V c).arrAt_in 2 rfl n, A_eq1, A_eq1, A_eq1]
  rw [(arr_whole1 0).set_eq_univ, (arr_whole1 3).set_eq_univ]
  rfl

/-- A buffer held whole splits into three holders of complementary shares, and back. -/
theorem three_shares {ℓ : Loc nD τ sig} (f : Buf (Elt F) ℓ) :
    ((ℓ ↦{fullShare} f : sProp 𝕄)) ⊣⊢ iprop((ℓ ↦{(fullShare : PosShare TreeShare).left} f)
      ∗ (ℓ ↦{(fullShare : PosShare TreeShare).right.left} f) ∗ (ℓ ↦{(fullShare : PosShare TreeShare).right.right} f)) := by
  constructor
  · iintro H
    ihave H' := (pointsTo_share (PosShare.mem_left_op_right fullShare)).1 $$ H
    icases H' with ⟨Hl, Hr⟩
    ihave Hr' := (pointsTo_share (PosShare.mem_left_op_right (fullShare : PosShare TreeShare).right)).1 $$ Hr
    icases Hr' with ⟨Hrl, Hrr⟩
    isplitl [Hl]; · iexact Hl
    isplitl [Hrl]; · iexact Hrl
    iexact Hrr
  · iintro ⟨Hl, Hrl, Hrr⟩
    iapply (pointsTo_share (PosShare.mem_left_op_right fullShare)).2
    isplitl [Hl]; · iexact Hl
    iapply (pointsTo_share (PosShare.mem_left_op_right (fullShare : PosShare TreeShare).right)).2
    isplitl [Hrl]; · iexact Hrl
    iexact Hrr

/-- The two distinct buffers behind the attention pipeline's four windows. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v8) ↦{fullShare} Vc main_v8) ∗ (((c : Thread nD τ).loc main_v9) ↦{fullShare} Vc main_v9)) := by
  unfold Pipeline.arrBufs
  exact bigSep_eq_bigSepL_of_eq [main_v8, main_v9] (by decide) (by decide) _

/-- Entering the attention region: the core's unscoped buffers are the pipeline's arrays at their entry contents
    and the rest. -/
theorem entry1 (c : Dev nD) :
    (unscopedBufs c (V c) : sProp 𝕄) ⊢ iprop((dat1 (F := F) V c).arrays ((dat1 V c).arrAt · 0)
      ∗ Pipeline.unscopedRest (Ix := Unit) (Name := ℕ) (U := UR sig nD τ) (Lvl := ℕ) spec1 c (V c)) := by
  rw [Pipeline.unscopedBufs_split₀ (cfgs) 1 winFacts₀1.arr_unscoped c (V c)]
  change (iprop(Pipeline.arrBufs spec1 c (V c) ∗ Pipeline.unscopedRest spec1 c (V c)) : sProp 𝕄) ⊢ _
  rw [arrBufs1_eq, arrays1_eq]
  iintro ⟨⟨H8, H9⟩, Hrest⟩
  isplitr [Hrest]
  swap; · iexact Hrest
  ihave H := (three_shares _).1 $$ H8
  icases H with ⟨Ha, Hb, Hc⟩
  isplitl [Ha]; · iexact Ha
  isplitl [Hb]; · iexact Hb
  isplitl [Hc]; · iexact Hc
  rw [show (dat1 V c).arrAt 3 0 = V c main_v9 from rfl]
  iexact H9

/-- Leaving it: the arrays at their final contents and the rest are the unscoped buffers at any contents that
    agree with the entry contents off the output array and with the pipeline's final array on it. -/
theorem exit1 (c : Dev nD) (V' : (b : Ref sig .tc) → Buf (Elt F) ((c : Thread nD τ).loc b))
    (hout : V' main_v9 = (dat1 V c).arrAt 3 cfg1.N) (hrest : ∀ b, b ≠ main_v9 → V' b = V c b) :
    iprop((dat1 (F := F) V c).arrays ((dat1 V c).arrAt · cfg1.N)
      ∗ Pipeline.unscopedRest (Ix := Unit) (Name := ℕ) (U := UR sig nD τ) (Lvl := ℕ) spec1 c (V c)) ⊢ (unscopedBufs c V' : sProp 𝕄) := by
  rw [Pipeline.unscopedBufs_split₀ (cfgs) 1 winFacts₀1.arr_unscoped c V']
  change _ ⊢ (iprop(Pipeline.arrBufs spec1 c V' ∗ Pipeline.unscopedRest spec1 c V') : sProp 𝕄)
  rw [arrBufs1_eq, arrays1_eq, hout, hrest main_v8 (by decide)]
  have hR : (Pipeline.unscopedRest (Ix := Unit) (Name := ℕ) (U := UR sig nD τ) (Lvl := ℕ) spec1 c V' : sProp 𝕄)
      = Pipeline.unscopedRest spec1 c (V c) := by
    unfold Pipeline.unscopedRest
    exact bigSep_congr fun b hb => by
      rw [hrest b (fun e => (Finset.mem_sdiff.mp hb).2 (Finset.mem_image.mpr ⟨3, Finset.mem_univ _, e.symm⟩))]
  rw [hR]
  iintro ⟨⟨Ha, Hb, Hc, H9⟩, Hrest⟩
  isplitr [Hrest]
  swap; · iexact Hrest
  isplitr [H9]
  swap; · iexact H9
  iapply (three_shares _).2
  isplitl [Ha]; · iexact Ha
  isplitl [Hb]; · iexact Hb
  iexact Hc
end R1

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := entry1 (F := F) (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (F := F) (V3 m) c (V4 m c) (W4_out m c) (fun b hb => W4_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its seven items, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
theorem main_run (c : Dev nD) : main (F := F) c = Pipeline.Seg.run (segs m) := (main_chain c).trans (by chain_rfl)

set_option backward.isDefEq.respectTransparency.types false in
/-- Every weakly fair execution of the program from memory `m` ends, nothing faulting, with every unscoped buffer of
    each core at the last of the contents above. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun c => by
        show (iprop(StableHlo.held (c : Thread nD τ) (Pipeline.ucRefs τ sig) (W7 m c) ∗ R c) : sProp 𝕄) ⊢ _
        iintro ⟨Hh, ⟨Hp, HO⟩⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-! ## The arguments end as launched -/

/-- A buffer that no host stretch writes and that is no kernel's window array holds its launch contents at the end. -/
theorem W7_keep (c : Dev nD) (r : Ref sig .tc) (h0 : r ∉ hostOps0_W) (h1 : r ∉ hostOps1_W) (h2 : r ∉ hostOps2_W)
    (h3 : r ∉ hostOps3_W) (ha0 : ∀ w, Pipeline.arrRef spec0 w ≠ r) (h9 : r ≠ main_v9) (ha2 : ∀ w, Pipeline.arrRef spec2 w ≠ r) :
    W7 m c (Proc.devRef .tc r) = m ((c : Thread nD τ).loc r) :=
  (StableHlo.after_of_writes_sub hostOps3 _ hostOps3_writes h3).trans <|
  (W6_of_ne m c r ha2).trans <| (StableHlo.after_of_writes_sub hostOps2 _ hostOps2_writes h2).trans <|
  (W4_of_ne m c r h9).trans <| (StableHlo.after_of_writes_sub hostOps1 _ hostOps1_writes h1).trans <|
  (W2_of_ne m c r ha0).trans <| (StableHlo.after_of_writes_sub hostOps0 _ hostOps0_writes h0).trans rfl
theorem W7_main_arg0 (c : Dev nD) : W7 m c (Proc.devRef .tc main_arg0) = m ((c : Thread nD τ).loc main_arg0) :=
  W7_keep m c main_arg0 (by decide) (by decide) (by decide) (by decide) (by decide) (by decide) (by decide)
theorem W7_main_arg1 (c : Dev nD) : W7 m c (Proc.devRef .tc main_arg1) = m ((c : Thread nD τ).loc main_arg1) :=
  W7_keep m c main_arg1 (by decide) (by decide) (by decide) (by decide) (by decide) (by decide) (by decide)
theorem W7_main_arg2 (c : Dev nD) : W7 m c (Proc.devRef .tc main_arg2) = m ((c : Thread nD τ).loc main_arg2) :=
  W7_keep m c main_arg2 (by decide) (by decide) (by decide) (by decide) (by decide) (by decide) (by decide)
theorem W7_main_arg3 (c : Dev nD) : W7 m c (Proc.devRef .tc main_arg3) = m ((c : Thread nD τ).loc main_arg3) :=
  W7_keep m c main_arg3 (by decide) (by decide) (by decide) (by decide) (by decide) (by decide) (by decide)

/-- The frame: every execution ends with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run m ρ)

end Cert.KernelIdeal.Hand

end
-- ==== Proof.KB.Reg0.lean ====
/-
  The first kernel: the projection, a matrix product.  Its grid has four points; point t reads rows
  1024·t … 1024·t + 1023 of the left factor and the whole right factor, and writes their product, rounded to the
  narrower float format, into the same rows of the result.  This module names what the body leaves in its output
  buffer as one term of the two blocks it reads, proves that the body does leave it, and assembles the per-point
  facts the pipeline's frame rule asks for: at every grid point each input buffer holds its block, and after the
  body the output buffer holds that term.  Everything here holds at any float instance.
-/
import proofs.«154070_j61375082660372_2_alg».proof.Proof.Gen.Kernel.Launch
import proofs.«154070_j61375082660372_2_alg».proof.Proof.Gen.Kernel.Skeleton
import proofs.«154070_j61375082660372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the first matrix product `x · w`, one block of 1024 rows per grid point -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows of the left factor) holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole right factor, whose block index never moves) holds its block at every point, whether
    or not it was fetched there: unfetched, the index has not moved and the buffer still holds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 1024×1024 buffer. -/
abbrev r0_0 : Rect S1024x1024 := Rect.unit (s := S1024x1024) ![0, 0] S1024x1024.size inb_S1024x1024_S1024x1024_0_0
/-- The whole 1024×2048 buffer. -/
abbrev r0_1 : Rect S1024x2048 := Rect.unit (s := S1024x2048) ![0, 0] S1024x2048.size inb_S1024x2048_S1024x2048_0_0

/-! ## What the body leaves in the output window's buffer -/

/-- Window 2's buffer after the body, from the input windows' blocks: one store of the whole buffer, whose value is
    the product of the two loaded blocks rounded to bf16. -/
def out0_2 (x0 : Vec F S1024x1024 .bf16) (x1 : Vec F S1024x2048 .bf16) : Vec F S1024x2048 .bf16 :=
  View.canon [⟨r0_1, k0_pay1 (View.ld x0 r0_0) (View.ld x1 r0_1)⟩]

/-- The one store covers the buffer. -/
theorem cover0_2 (p0 : Vec F S1024x2048 .bf16) (y : S1024x2048.Idx) :
    ∃ pc ∈ ([⟨r0_1, p0⟩] : List (View.Piece (Elt F) S1024x2048 .bf16)), y ∈ pc.1.set :=
  View.cover_of_tiled [⟨r0_1, p0⟩] S1024x2048.size (by rfl) y

/-! ## The body's triple -/

set_option maxHeartbeats 1000000 in
/-- The body on whole staging buffers, the inputs' at read contents `x0`, `x1` and the output's at anything, runs to
    the continuation holding the inputs' as they were and the output's at `out0_2 x0 x1`. The body also loads the
    output buffer before it stores; that value is not used. -/
theorem sound_kernel0 (c : Dev nD) (E : Set ℕ) (i : grid0.Coords) (arg0 : Memref sig .tc .vmem S1024x1024 .bf16) (harg0 : arg0.IsWhole) (arg1 : Memref sig .tc .vmem S1024x2048 .bf16) (harg1 : arg1.IsWhole) (arg2 : Memref sig .tc .vmem S1024x2048 .bf16) (harg2 : arg2.IsWhole)
    (x0 : Vec F S1024x1024 .bf16) (x1 : Vec F S1024x2048 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__mm_kernel i arg0 harg0 arg1 harg1 arg2 harg2) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input's buffer at its block and the output's at `out0_2` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
/-
  The attention region of the program: the kernel body on its 2×8×8 grid, as one step of the block pipeline.

  Three input windows read one array (a 256-row query tile, and the 2048-row key and value strips, which move only when
  the head pair changes), and one output window is written back at every point. This module states what the body leaves
  in the output block as a function of the three input blocks — two stores, one per 64-column half —, shows that the body
  run on the staging buffers leaves exactly that, and assembles the per-point obligation of the pipeline from it. Nothing
  here depends on the float instance.
-/
import proofs.«154070_j61375082660372_2_alg».proof.Proof.Gen.Kernel.Launch
import proofs.«154070_j61375082660372_2_alg».proof.Proof.Gen.Kernel.Skeleton
import proofs.«154070_j61375082660372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! # The attention region: the kernel `cc1__l2_attn_kernel` on its 2×8×8 grid, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window is fetched only when its block index moves (every eighth point); in between the body leaves the
    block in place, so the buffer holds the block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the value window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole query block, the whole key / value block, and the two column halves of the output block. -/
abbrev r1_q : Rect S1x256x128 := Rect.unit (s := S1x256x128) ![0, 0, 0] S1x256x128.size inb_S1x256x128_S1x256x128_0_0_0
abbrev r1_kv : Rect S1x2048x128 := Rect.unit (s := S1x2048x128) ![0, 0, 0] S1x2048x128.size inb_S1x2048x128_S1x2048x128_0_0_0
abbrev r1_lo : Rect S1x256x128 := Rect.unit (s := S1x256x128) ![0, 0, 0] S1x256x64.size inb_S1x256x128_S1x256x64_0_0_0
abbrev r1_hi : Rect S1x256x128 := Rect.unit (s := S1x256x128) ![0, 0, 64] S1x256x64.size inb_S1x256x128_S1x256x64_0_0_64

/-- The output block after the body: columns 64–127 hold the second head's rows, columns 0–63 the first head's
    (the later store listed first). -/
def out1_3 (x0 : Vec F S1x256x128 .bf16) (x1 x2 : Vec F S1x2048x128 .bf16) : Vec F S1x256x128 .bf16 :=
  View.canon [⟨r1_hi, k1_pay2 (k1_pay3 (View.ld x0 r1_q)) (k1_pay4 (View.ld x1 r1_kv)) (k1_pay5 (View.ld x2 r1_kv))⟩,
    ⟨r1_lo, k1_pay1 (k1_pay6 (View.ld x0 r1_q) (View.ld x1 r1_kv) (View.ld x2 r1_kv))⟩]

/-- The two column halves tile the output block, so they cover it. -/
theorem cover1_3 (p0 p1 : Vec F S1x256x64 .bf16) (y : S1x256x128.Idx) :
    ∃ pc ∈ ([⟨r1_hi, p0⟩, ⟨r1_lo, p1⟩] : List (View.Piece (Elt F) S1x256x128 .bf16)), y ∈ pc.1.set :=
  View.cover_of_tiled [⟨r1_hi, p0⟩, ⟨r1_lo, p1⟩] S1x256x64.size (by rfl) y

/-! ## The body's triple -/

set_option maxHeartbeats 1000000 in
/-- The kernel body on whole staging memrefs, the three inputs' at read contents `x0`, `x1`, `x2` and the output's at
    anything, runs to the continuation holding the inputs' as they were and the output's at `out1_3` of the inputs'.
    The body also loads each half of the output block before it stores there; what those loads return is not used. -/
theorem sound_kernel1 (c : Dev nD) (E : Set ℕ) (i : grid1.Coords) (arg0 : Memref sig .tc .vmem S1x256x128 .bf16) (harg0 : arg0.IsWhole)
    (arg1 : Memref sig .tc .vmem S1x2048x128 .bf16) (harg1 : arg1.IsWhole) (arg2 : Memref sig .tc .vmem S1x2048x128 .bf16) (harg2 : arg2.IsWhole)
    (arg3 : Memref sig .tc .vmem S1x256x128 .bf16) (harg3 : arg3.IsWhole)
    (x0 : Vec F S1x256x128 .bf16) (x1 x2 : Vec F S1x2048x128 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__l2_attn_kernel i arg0 harg0 arg1 harg1 arg2 harg2 arg3 harg3) K := by
  simp only [cc1__l2_attn_kernel_eq_skeleton]; unfold cc1__l2_attn_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-! ## The pipeline's data -/

/-- The data of the attention pipeline on core `c`: the arrays as the region finds them; after the body at point
    `t` each input's buffer at its block and the output's at `out1_3` of the input blocks. The three input windows read
    one array, so they hold disjoint parts of its share; the output array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => (fullShare : PosShare TreeShare).left
    | ⟨1, _⟩ => (fullShare : PosShare TreeShare).right.left
    | ⟨2, _⟩ => (fullShare : PosShare TreeShare).right.right
    | ⟨3, _⟩ => fullShare
  owed _ := 0

/-- Its arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the attention pipeline, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KB.Reg2.lean ====
/-
  The last kernel: the output projection, a matrix product plus a bias row.  Its grid has four points; point t reads
  rows 1024·t … 1024·t + 1023 of the left factor, the whole right factor and the whole bias row, and writes the
  product with the bias row added to each of its rows into the same rows of the result.  This module names what the
  body leaves in its output buffer as one term of the three blocks it reads, proves that the body does leave it, and
  assembles the per-point facts the pipeline's frame rule asks for: at every grid point each input buffer holds its
  block, and after the body the output buffer holds that term.  Everything here holds at any float instance.
-/
import proofs.«154070_j61375082660372_2_alg».proof.Proof.Gen.Kernel.Launch
import proofs.«154070_j61375082660372_2_alg».proof.Proof.Gen.Kernel.Skeleton
import proofs.«154070_j61375082660372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: the last matrix product with bias, `a · w + b`, one block of 1024 rows per grid point -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the rows of the left factor) holds its block at every point, for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole right factor, whose block index never moves) holds its block at every point, whether
    or not it was fetched there: unfetched, the index has not moved and the buffer still holds the same block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the whole bias row, whose block index never moves) likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 1024×1024 buffer. -/
abbrev r2_0 : Rect S1024x1024 := Rect.unit (s := S1024x1024) ![0, 0] S1024x1024.size inb_S1024x1024_S1024x1024_0_0
/-- The whole 1×1024 buffer. -/
abbrev r2_2 : Rect S1x1024 := Rect.unit (s := S1x1024) ![0, 0] S1x1024.size inb_S1x1024_S1x1024_0_0

/-! ## What the body leaves in the output window's buffer -/

/-- Window 3's buffer after the body, from the input windows' blocks: one store of the whole buffer, whose value is
    the product of the two loaded blocks plus the bias row broadcast down the rows. -/
def out2_3 (x0 : Vec F S1024x1024 .bf16) (x1 : Vec F S1024x1024 .bf16) (x2 : Vec F S1x1024 .f32) : Vec F S1024x1024 .f32 :=
  View.canon [⟨r2_0, k2_pay1 (View.ld x0 r2_0) (View.ld x1 r2_0) (View.ld x2 r2_2)⟩]

/-- The one store covers the buffer. -/
theorem cover2_3 (p0 : Vec F S1024x1024 .f32) (y : S1024x1024.Idx) :
    ∃ pc ∈ ([⟨r2_0, p0⟩] : List (View.Piece (Elt F) S1024x1024 .f32)), y ∈ pc.1.set :=
  View.cover_of_tiled [⟨r2_0, p0⟩] S1024x1024.size (by rfl) y

/-! ## The body's triple -/

set_option maxHeartbeats 1000000 in
/-- The body on whole staging buffers, the inputs' at read contents `x0`, `x1`, `x2` and the output's at anything,
    runs to the continuation holding the inputs' as they were and the output's at `out2_3 x0 x1 x2`. The body also
    loads the output buffer before it stores; that value is not used. -/
theorem sound_kernel2 (c : Dev nD) (E : Set ℕ) (i : grid2.Coords) (arg0 : Memref sig .tc .vmem S1024x1024 .bf16) (harg0 : arg0.IsWhole) (arg1 : Memref sig .tc .vmem S1024x1024 .bf16) (harg1 : arg1.IsWhole) (arg2 : Memref sig .tc .vmem S1x1024 .f32) (harg2 : arg2.IsWhole) (arg3 : Memref sig .tc .vmem S1024x1024 .f32) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__mm_bias_kernel i arg0 harg0 arg1 harg1 arg2 harg2 arg3 harg3) K := by
  simp only [cc2__mm_bias_kernel_eq_skeleton]; unfold cc2__mm_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them; after the body at point `t` each
    input's buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Run.lean ====
/-
  The whole program run once, at any float instance.

  The program is seven items in a row: host operations, the projection kernel, a reshape, the attention kernel,
  host operations, the output-projection kernel, a reshape.  Between two items every unscoped buffer of a core holds
  known contents: the launch memory, then each host stretch applied, then — after a kernel — that kernel's output
  array at what its grid's write-backs leave and every other buffer as it was.  Each kernel region is entered from
  those contents and left at the next; the attention kernel reads ONE array through three windows, so on entry that
  array is split into three complementary shares, one per window, and on exit the shares are joined again.
  The result: every execution ends, nothing faults, and every unscoped buffer ends at the last contents of the chain.
-/
import proofs.«154070_j61375082660372_2_alg».proof.Proof.KB.Reg0
import proofs.«154070_j61375082660372_2_alg».proof.Proof.KB.Reg1
import proofs.«154070_j61375082660372_2_alg».proof.Proof.KB.Reg2
import proofs.«154070_j61375082660372_2_alg».proof.Proof.Gen.Kernel.Regions
import proofs.«154070_j61375082660372_2_alg».proof.Proof.Gen.Kernel.Launch
import proofs.«154070_j61375082660372_2_alg».proof.Proof.Gen.Kernel.Skeleton
import proofs.«154070_j61375082660372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the seven items of the program -/

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Function.update (W3 m c) (Proc.devRef .tc main_v9) ((dat1 (V3 m) c).arrAt 3 cfg1.N)
abbrev V4 : (c : Dev nD) → (b : Ref sig .tc) → Buf (Elt F) ((c : Thread nD τ).loc b) := fun c b => W4 m c b
theorem W4_out (c : Dev nD) : W4 m c (Proc.devRef .tc main_v9) = (dat1 (V3 m) c).arrAt 3 cfg1.N := by
  unfold W4; exact Function.update_self ..
theorem W4_of_ne (c : Dev nD) (b : Ref sig .tc) (hb : b ≠ main_v9) :
    W4 m c (Proc.devRef .tc b) = W3 m c (Proc.devRef .tc b) := by
  unfold W4; exact Function.update_of_ne (StableHlo.devRef_ne_of_ne hb) ..

abbrev W5 : Dev nD → Valuation τ sig (Elt F) := fun c => StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
abbrev W7 : Dev nD → Valuation τ sig (Elt F) := fun c => StableHlo.after hostOps3 (W6 m c)

/-! ## The proof data of the three pipelines and what rides beside the buffers -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

section R1
variable (V : (c : Dev nD) → (b : Ref sig .tc) → Buf (Elt F) ((c : Thread nD τ).loc b))
/-- The attention pipeline's arrays: its three input windows read ONE array, each holding a third share of it; its
    output window holds its own array outright. -/
theorem arrays1_eq (c : Dev nD) (n : Nat) :
    ((dat1 (F := F) V c).arrays ((dat1 V c).arrAt · n) : sProp 𝕄)
      = iprop((((c : Thread nD τ).loc main_v8) ↦{(fullShare : PosShare TreeShare).left} V c main_v8)
          ∗ (((c : Thread nD τ).loc main_v8) ↦{(fullShare : PosShare TreeShare).right.left} V c main_v8)
          ∗ (((c : Thread nD τ).loc main_v8) ↦{(fullShare : PosShare TreeShare).right.right} V c main_v8)
          ∗ (((c : Thread nD τ).loc main_v9) ↦{fullShare} (dat1 V c).arrAt 3 n)) := by
  unfold Dat.arrays
  rw [bigSep_W1]
  dsimp only
  rw [(dat1 V c).arrAt_in 0 rfl n, (dat1 V c).arrAt_in 1 rfl n, (dat1 V c).arrAt_in 2 rfl n, A_eq1, A_eq1, A_eq1]
  rw [(arr_whole1 0).set_eq_univ, (arr_whole1 3).set_eq_univ]
  rfl

/-- A buffer held whole splits into three holders of complementary shares, and back. -/
theorem three_shares {ℓ : Loc nD τ sig} (f : Buf (Elt F) ℓ) :
    ((ℓ ↦{fullShare} f : sProp 𝕄)) ⊣⊢ iprop((ℓ ↦{(fullShare : PosShare TreeShare).left} f)
      ∗ (ℓ ↦{(fullShare : PosShare TreeShare).right.left} f) ∗ (ℓ ↦{(fullShare : PosShare TreeShare).right.right} f)) := by
  constructor
  · iintro H
    ihave H' := (pointsTo_share (PosShare.mem_left_op_right fullShare)).1 $$ H
    icases H' with ⟨Hl, Hr⟩
    ihave Hr' := (pointsTo_share (PosShare.mem_left_op_right (fullShare : PosShare TreeShare).right)).1 $$ Hr
    icases Hr' with ⟨Hrl, Hrr⟩
    isplitl [Hl]; · iexact Hl
    isplitl [Hrl]; · iexact Hrl
    iexact Hrr
  · iintro ⟨Hl, Hrl, Hrr⟩
    iapply (pointsTo_share (PosShare.mem_left_op_right fullShare)).2
    isplitl [Hl]; · iexact Hl
    iapply (pointsTo_share (PosShare.mem_left_op_right (fullShare : PosShare TreeShare).right)).2
    isplitl [Hrl]; · iexact Hrl
    iexact Hrr

/-- The two distinct buffers behind the attention pipeline's four windows. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v8) ↦{fullShare} Vc main_v8) ∗ (((c : Thread nD τ).loc main_v9) ↦{fullShare} Vc main_v9)) := by
  unfold Pipeline.arrBufs
  exact bigSep_eq_bigSepL_of_eq [main_v8, main_v9] (by decide) (by decide) _

/-- Entering the attention region: the core's unscoped buffers are the pipeline's arrays at their entry contents
    and the rest. -/
theorem entry1 (c : Dev nD) :
    (unscopedBufs c (V c) : sProp 𝕄) ⊢ iprop((dat1 (F := F) V c).arrays ((dat1 V c).arrAt · 0)
      ∗ Pipeline.unscopedRest (Ix := Unit) (Name := ℕ) (U := UR sig nD τ) (Lvl := ℕ) spec1 c (V c)) := by
  rw [Pipeline.unscopedBufs_split₀ (cfgs) 1 winFacts₀1.arr_unscoped c (V c)]
  change (iprop(Pipeline.arrBufs spec1 c (V c) ∗ Pipeline.unscopedRest spec1 c (V c)) : sProp 𝕄) ⊢ _
  rw [arrBufs1_eq, arrays1_eq]
  iintro ⟨⟨H8, H9⟩, Hrest⟩
  isplitr [Hrest]
  swap; · iexact Hrest
  ihave H := (three_shares _).1 $$ H8
  icases H with ⟨Ha, Hb, Hc⟩
  isplitl [Ha]; · iexact Ha
  isplitl [Hb]; · iexact Hb
  isplitl [Hc]; · iexact Hc
  rw [show (dat1 V c).arrAt 3 0 = V c main_v9 from rfl]
  iexact H9

/-- Leaving it: the arrays at their final contents and the rest are the unscoped buffers at any contents that
    agree with the entry contents off the output array and with the pipeline's final array on it. -/
theorem exit1 (c : Dev nD) (V' : (b : Ref sig .tc) → Buf (Elt F) ((c : Thread nD τ).loc b))
    (hout : V' main_v9 = (dat1 V c).arrAt 3 cfg1.N) (hrest : ∀ b, b ≠ main_v9 → V' b = V c b) :
    iprop((dat1 (F := F) V c).arrays ((dat1 V c).arrAt · cfg1.N)
      ∗ Pipeline.unscopedRest (Ix := Unit) (Name := ℕ) (U := UR sig nD τ) (Lvl := ℕ) spec1 c (V c)) ⊢ (unscopedBufs c V' : sProp 𝕄) := by
  rw [Pipeline.unscopedBufs_split₀ (cfgs) 1 winFacts₀1.arr_unscoped c V']
  change _ ⊢ (iprop(Pipeline.arrBufs spec1 c V' ∗ Pipeline.unscopedRest spec1 c V') : sProp 𝕄)
  rw [arrBufs1_eq, arrays1_eq, hout, hrest main_v8 (by decide)]
  have hR : (Pipeline.unscopedRest (Ix := Unit) (Name := ℕ) (U := UR sig nD τ) (Lvl := ℕ) spec1 c V' : sProp 𝕄)
      = Pipeline.unscopedRest spec1 c (V c) := by
    unfold Pipeline.unscopedRest
    exact bigSep_congr fun b hb => by
      rw [hrest b (fun e => (Finset.mem_sdiff.mp hb).2 (Finset.mem_image.mpr ⟨3, Finset.mem_univ _, e.symm⟩))]
  rw [hR]
  iintro ⟨⟨Ha, Hb, Hc, H9⟩, Hrest⟩
  isplitr [Hrest]
  swap; · iexact Hrest
  isplitr [H9]
  swap; · iexact H9
  iapply (three_shares _).2
  isplitl [Ha]; · iexact Ha
  isplitl [Hb]; · iexact Hb
  iexact Hc
end R1

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := entry1 (F := F) (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (F := F) (V3 m) c (V4 m c) (W4_out m c) (fun b hb => W4_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its seven items, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
theorem main_run (c : Dev nD) : main (F := F) c = Pipeline.Seg.run (segs m) := (main_chain c).trans (by chain_rfl)

set_option backward.isDefEq.respectTransparency.types false in
/-- Every weakly fair execution of the program from memory `m` ends, nothing faulting, with every unscoped buffer of
    each core at the last of the contents above. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun c => by
        show (iprop(StableHlo.held (c : Thread nD τ) (Pipeline.ucRefs τ sig) (W7 m c) ∗ R c) : sProp 𝕄) ⊢ _
        iintro ⟨Hh, ⟨Hp, HO⟩⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-! ## The arguments end as launched -/

/-- A buffer that no host stretch writes and that is no kernel's window array holds its launch contents at the end. -/
theorem W7_keep (c : Dev nD) (r : Ref sig .tc) (h0 : r ∉ hostOps0_W) (h1 : r ∉ hostOps1_W) (h2 : r ∉ hostOps2_W)
    (h3 : r ∉ hostOps3_W) (ha0 : ∀ w, Pipeline.arrRef spec0 w ≠ r) (h9 : r ≠ main_v9) (ha2 : ∀ w, Pipeline.arrRef spec2 w ≠ r) :
    W7 m c (Proc.devRef .tc r) = m ((c : Thread nD τ).loc r) :=
  (StableHlo.after_of_writes_sub hostOps3 _ hostOps3_writes h3).trans <|
  (W6_of_ne m c r ha2).trans <| (StableHlo.after_of_writes_sub hostOps2 _ hostOps2_writes h2).trans <|
  (W4_of_ne m c r h9).trans <| (StableHlo.after_of_writes_sub hostOps1 _ hostOps1_writes h1).trans <|
  (W2_of_ne m c r ha0).trans <| (StableHlo.after_of_writes_sub hostOps0 _ hostOps0_writes h0).trans rfl
theorem W7_main_arg0 (c : Dev nD) : W7 m c (Proc.devRef .tc main_arg0) = m ((c : Thread nD τ).loc main_arg0) :=
  W7_keep m c main_arg0 (by decide) (by decide) (by decide) (by decide) (by decide) (by decide) (by decide)
theorem W7_main_arg1 (c : Dev nD) : W7 m c (Proc.devRef .tc main_arg1) = m ((c : Thread nD τ).loc main_arg1) :=
  W7_keep m c main_arg1 (by decide) (by decide) (by decide) (by decide) (by decide) (by decide) (by decide)
theorem W7_main_arg2 (c : Dev nD) : W7 m c (Proc.devRef .tc main_arg2) = m ((c : Thread nD τ).loc main_arg2) :=
  W7_keep m c main_arg2 (by decide) (by decide) (by decide) (by decide) (by decide) (by decide) (by decide)
theorem W7_main_arg3 (c : Dev nD) : W7 m c (Proc.devRef .tc main_arg3) = m ((c : Thread nD τ).loc main_arg3) :=
  W7_keep m c main_arg3 (by decide) (by decide) (by decide) (by decide) (by decide) (by decide) (by decide)

/-- The frame: every execution ends with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run m ρ)

end Cert.Kernel.Hand

end
-- ==== Proof.Spec.lean ====
/-
  The function both programs compute, written once over the extended reals.

  Inputs: x[b,t,c] (2×2048×1024), the joint query/key–value weight w[e,c] (2048×1024), the output weight p[e,j]
  (1024×1024) and a bias β[e] (1024).  With 16 heads of width 64:

  * the projection  y[b,t,e] = Σ_c x[b,t,c]·w[e,c];
  * column e = 32·d + 16·k + h of y is coordinate d of head h's key (k = 0; queries and keys coincide) or
    value (k = 1);
  * per batch b and head h, with K[t,d] the keys and V[s,d] the values:
      score[t,s] = −((‖K_t‖² + ‖K_s‖²) − 2·⟨K_t,K_s⟩) / 8   (minus the squared distance, scaled),
      a[t,s]     = exp(score[t,s] − max_s score[t,s]) / Σ_s exp(score[t,s] − max_s score[t,s]),
      o[t,d]     = Σ_s a[t,s]·V[s,d];
  * heads are laid side by side, z[b,t,64·h+d] = o_{b,h}[t,d], and the result is
      G[b,t,e] = Σ_j z[b,t,j]·p[e,j] + β[e].

  The three float literals (2, 1/8 and −∞) are kept as the words the programs print; nothing here evaluates them.
-/
import Idealize.ShloMosaic.PureOps.Ideal
import Idealize.ShloMosaic.Lib.ValueIdx

noncomputable section

open scoped BigOperators

namespace Cert.L2Attn

open Idealize.ShloMosaic Idealize.ShloMosaic.ValueIdx

/-- The shapes of the four inputs (and of the result, which has x's shape). -/
abbrev SX : Shape := ⟨3, ![2, 2048, 1024]⟩
abbrev SW : Shape := ⟨2, ![2048, 1024]⟩
abbrev SP : Shape := ⟨2, ![1024, 1024]⟩
abbrev SB : Shape := ⟨1, ![1024]⟩

/-- The literals 2, 1/8 and −∞ as the printed words denote them. -/
def two : EReal := Ideal.ofBits .f32 0x40000000#32
def eighth : EReal := Ideal.ofBits .f32 0x3E000000#32
def negInf : EReal := Ideal.ofBits .f32 0xFF800000#32

/-- The joint projection y[b,t,e] = Σ_c x[b,t,c]·w[e,c]. -/
def proj (x : SX.Idx → EReal) (w : SW.Idx → EReal) (b : Fin 2) (t : Fin 2048) (e : Fin 2048) : EReal :=
  ∑ c : Fin 1024, x (ix3 b t c) * w (ix2 e c)

/-- The projection's column that holds coordinate d of head h's key (k = 0) or value (k = 1): 32·d + 16·k + h. -/
def col (k : Fin 2) (h : Fin 16) (d : Fin 64) : Fin 2048 :=
  ⟨d.val * 32 + k.val * 16 + h.val, by have := d.isLt; have := k.isLt; have := h.isLt; omega⟩

/-- Head h of batch b: its keys (which are also its queries) and its values, as 2048×64 matrices. -/
def keys (y : Fin 2 → Fin 2048 → Fin 2048 → EReal) (b : Fin 2) (h : Fin 16) (t : Fin 2048) (d : Fin 64) : EReal :=
  y b t (col 0 h d)
def vals (y : Fin 2 → Fin 2048 → Fin 2048 → EReal) (b : Fin 2) (h : Fin 16) (s : Fin 2048) (d : Fin 64) : EReal :=
  y b s (col 1 h d)

section Head

variable (K V : Fin 2048 → Fin 64 → EReal)

/-- ‖K_t‖². -/
def sqn (t : Fin 2048) : EReal := ∑ d : Fin 64, K t d * K t d
/-- ⟨K_t, K_s⟩. -/
def cross (t s : Fin 2048) : EReal := ∑ d : Fin 64, K t d * K s d
/-- Minus the squared distance of K_t and K_s, scaled by 1/8. -/
def score (t s : Fin 2048) : EReal := (-((sqn K t + sqn K s) - two * cross K t s)) * eighth
/-- The row's largest score (the running maximum started at −∞). -/
def rowMax (t : Fin 2048) : EReal := (Finset.univ : Finset (Fin 2048)).fold max negInf (fun s => score K t s)
/-- The unnormalised weight and the row's normaliser. -/
def expo (t s : Fin 2048) : EReal := Ideal.exp (score K t s - rowMax K t)
def denom (t : Fin 2048) : EReal := ∑ s : Fin 2048, expo K t s
/-- The attention weight. -/
def attn (t s : Fin 2048) : EReal := Ideal.div (expo K t s) (denom K t)
/-- One head's output row t, coordinate d. -/
def headOut (t : Fin 2048) (d : Fin 64) : EReal := ∑ s : Fin 2048, attn K t s * V s d

end Head

/-- The heads side by side: column j = 64·h + d of row (b,t) is head h's output at (t,d). -/
def merged (y : Fin 2 → Fin 2048 → Fin 2048 → EReal) (b : Fin 2) (t : Fin 2048) (j : Fin 1024) : EReal :=
  headOut (keys y b ⟨j.val / 64, by have := j.isLt; omega⟩) (vals y b ⟨j.val / 64, by have := j.isLt; omega⟩) t
    ⟨j.val % 64, Nat.mod_lt _ (by decide)⟩

/-- The whole function: the output projection of the merged heads, plus the bias. -/
def G (x : SX.Idx → EReal) (w : SW.Idx → EReal) (p : SP.Idx → EReal) (β : SB.Idx → EReal) : SX.Idx → EReal :=
  fun i => (∑ j : Fin 1024, merged (proj x w) (i 0) (i 1) j * p (ix2 (i 2) j)) + β (ix1 (i 2))

end Cert.L2Attn

end
-- ==== Proof.Ref.Layout.lean ====
/-
  The reference's joint projection, and the keys and values it cuts out of it, read entry by entry.

  The projection y[b,t,e] is reshaped to [b,t,d,k,h] (so e = 32·d + 16·k + h), the slice k = 0 (keys) or k = 1
  (values) is taken, the unit axis is dropped and the axes are permuted to [b,h,t,d].  Each step moves an entry
  without changing it; composing the index maps gives  keys[b,h,t,d] = y[b,t,32·d+h]  and
  vals[b,h,t,d] = y[b,t,32·d+16+h].
-/
import proofs.«154070_j61375082660372_2_alg».proof.Proof.Gen.ReferenceIdeal.Read
import proofs.«154070_j61375082660372_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The types of the four arguments' contents. -/
abbrev X0 : Type := (⟨S2x2048x1024, .f32⟩ : BufTy).Contents (Elt Ideal)
abbrev X1 : Type := (⟨S2048x1024, .f32⟩ : BufTy).Contents (Elt Ideal)
abbrev X2 : Type := (⟨S1024x1024, .f32⟩ : BufTy).Contents (Elt Ideal)
abbrev X3 : Type := (⟨S1024, .f32⟩ : BufTy).Contents (Elt Ideal)

variable (x0 : X0) (x1 : X1)

/-- The first contraction is the projection: entry (b,t,e) is Σ_c x[b,t,c]·w[e,c]. -/
theorem v0_at (b : Fin 2) (t : Fin 2048) (e : Fin 2048) :
    val_main_v0 (F := Ideal) x0 x1 (ix3 b t e) = L2Attn.proj x0 x1 b t e := by
  rw [val_main_v0_apply]
  unfold L2Attn.proj
  refine Finset.sum_congr rfl fun k _ => ?_
  have el : lidx_main_v0 (ix3 b t e) k = ix3 b t k := funext fun a => by
    match a with | ⟨0, _⟩ => rfl | ⟨1, _⟩ => rfl | ⟨2, _⟩ => rfl
  have er : ridx_main_v0 (ix3 b t e) k = ix2 e k := funext fun a => by
    match a with | ⟨0, _⟩ => rfl | ⟨1, _⟩ => rfl
  rw [el, er]

/-- The five-axis view of the projection: entry (b,t,d,k,h) is column 32·d + 16·k + h of row (b,t). -/
theorem v1_at (b : Fin 2) (t : Fin 2048) (d : Fin 64) (k : Fin 2) (h : Fin 16) :
    val_main_v1 (F := Ideal) x0 x1 (ix5 b t d k h) = L2Attn.proj x0 x1 b t (L2Attn.col k h d) := by
  rw [val_main_v1_apply]
  have e : idx_main_v1 (ix5 b t d k h) = ix3 b t (L2Attn.col k h d) := funext fun a => Fin.ext (by
    have hb := b.isLt; have ht := t.isLt; have hd := d.isLt; have hk := k.isLt; have hh := h.isLt
    match a with
    | ⟨0, _⟩ => show ((((b.val * 2048 + t.val) * 64 + d.val) * 2 + k.val) * 16 + h.val) / 4194304 = b.val; omega
    | ⟨1, _⟩ => show ((((b.val * 2048 + t.val) * 64 + d.val) * 2 + k.val) * 16 + h.val) / 2048 % 2048 = t.val; omega
    | ⟨2, _⟩ => show ((((b.val * 2048 + t.val) * 64 + d.val) * 2 + k.val) * 16 + h.val) % 2048 = d.val * 32 + k.val * 16 + h.val; omega)
  rw [e, v0_at]

/-- Dropping the unit axis: the four-axis entry (b,t,d,h) is the five-axis entry (b,t,d,0,h). -/
theorem idx3_at (b : Fin 2) (t : Fin 2048) (d : Fin 64) (h : Fin 16) :
    idx_main_v3 (ix4 b t d h) = ix5 b t d (0 : Fin 1) h := funext fun a => Fin.ext (by
  have hb := b.isLt; have ht := t.isLt; have hd := d.isLt; have hh := h.isLt
  match a with
  | ⟨0, _⟩ => show (((b.val * 2048 + t.val) * 64 + d.val) * 16 + h.val) / 2097152 = b.val; omega
  | ⟨1, _⟩ => show (((b.val * 2048 + t.val) * 64 + d.val) * 16 + h.val) / 1024 % 2048 = t.val; omega
  | ⟨2, _⟩ => show (((b.val * 2048 + t.val) * 64 + d.val) * 16 + h.val) / 16 % 64 = d.val; omega
  | ⟨3, _⟩ => rfl
  | ⟨4, _⟩ => show (((b.val * 2048 + t.val) * 64 + d.val) * 16 + h.val) % 16 = h.val; omega)

/-- The permutation [b,t,d,h] → [b,h,t,d]. -/
theorem idx4_at (b : Fin 2) (h : Fin 16) (t : Fin 2048) (d : Fin 64) :
    idx_main_v4 (ix4 b h t d) = ix4 b t d h := funext fun a => by
  match a with | ⟨0, _⟩ => rfl | ⟨1, _⟩ => rfl | ⟨2, _⟩ => rfl | ⟨3, _⟩ => rfl

/-- The keys: entry (b,h,t,d) is column 32·d + h of the projection's row (b,t). -/
theorem v4_at (b : Fin 2) (h : Fin 16) (t : Fin 2048) (d : Fin 64) :
    val_main_v4 (F := Ideal) x0 x1 (ix4 b h t d) = L2Attn.keys (L2Attn.proj x0 x1) b h t d := by
  rw [val_main_v4_apply, idx4_at, val_main_v3_apply, idx3_at, val_main_v2_apply]
  have e2 : idx_main_v2 (ix5 b t d (0 : Fin 1) h) = ix5 b t d (0 : Fin 2) h := funext fun a => by
    match a with | ⟨0, _⟩ => rfl | ⟨1, _⟩ => rfl | ⟨2, _⟩ => rfl | ⟨3, _⟩ => rfl | ⟨4, _⟩ => rfl
  rw [e2, v1_at]
  rfl

/-- The values: entry (b,h,s,d) is column 32·d + 16 + h of the projection's row (b,s). -/
theorem v7_at (b : Fin 2) (h : Fin 16) (s : Fin 2048) (d : Fin 64) :
    val_main_v7 (F := Ideal) x0 x1 (ix4 b h s d) = L2Attn.vals (L2Attn.proj x0 x1) b h s d := by
  have e7 : idx_main_v7 (ix4 b h s d) = ix4 b s d h := funext fun a => by
    match a with | ⟨0, _⟩ => rfl | ⟨1, _⟩ => rfl | ⟨2, _⟩ => rfl | ⟨3, _⟩ => rfl
  have e6 : idx_main_v6 (ix4 b s d h) = ix5 b s d (0 : Fin 1) h := idx3_at b s d h
  rw [val_main_v7_apply, e7, val_main_v6_apply, e6, val_main_v5_apply]
  have e5 : idx_main_v5 (ix5 b s d (0 : Fin 1) h) = ix5 b s d (1 : Fin 2) h := funext fun a => by
    match a with | ⟨0, _⟩ => rfl | ⟨1, _⟩ => rfl | ⟨2, _⟩ => rfl | ⟨3, _⟩ => rfl | ⟨4, _⟩ => rfl
  rw [e5, v1_at]
  rfl

end Cert.ReferenceIdeal.RefValue

end
-- ==== Proof.Ref.Score.lean ====
/-
  The reference's scaled negative squared distances, read entry by entry.

  For keys K (per batch b and head h):  ‖K_t‖² is a sum over the 64 coordinates started from the word 0, the
  inner products ⟨K_t,K_s⟩ are a contraction over the last axis, and the score is
  (−((‖K_t‖² + ‖K_s‖²) − 2·⟨K_t,K_s⟩))·(1/8) with the two norms broadcast along the other axis.
-/
import proofs.«154070_j61375082660372_2_alg».proof.Proof.Gen.ReferenceIdeal.Read
import proofs.«154070_j61375082660372_2_alg».proof.Proof.Ref.Layout

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : X0) (x1 : X1)

/-- The squared norms: entry (b,h,t) is Σ_d K[t,d]·K[t,d]. -/
theorem v9_at (b : Fin 2) (h : Fin 16) (t : Fin 2048) :
    val_main_v9 (F := Ideal) x0 x1 (ix3 b h t) = L2Attn.sqn (L2Attn.keys (L2Attn.proj x0 x1) b h) t := by
  rw [val_main_v9_apply, val_main_cst_apply, Ideal.ofBits_def, Ideal.ofBits_zero_f32, zero_add]
  unfold L2Attn.sqn
  refine Finset.sum_congr rfl fun k _ => ?_
  have e : idx_main_v9 (ix3 b h t) k = ix4 b h t k := funext fun a => by
    match a with | ⟨0, _⟩ => rfl | ⟨1, _⟩ => rfl | ⟨2, _⟩ => rfl | ⟨3, _⟩ => rfl
  rw [e, val_main_v8_apply, v4_at, Ideal.mulf_def]

/-- The inner products: entry (b,h,t,s) is Σ_d K[t,d]·K[s,d]. -/
theorem v10_at (b : Fin 2) (h : Fin 16) (t s : Fin 2048) :
    val_main_v10 (F := Ideal) x0 x1 (ix4 b h t s) = L2Attn.cross (L2Attn.keys (L2Attn.proj x0 x1) b h) t s := by
  rw [val_main_v10_apply]
  unfold L2Attn.cross
  refine Finset.sum_congr rfl fun k _ => ?_
  have el : lidx_main_v10 (ix4 b h t s) k = ix4 b h t k := funext fun a => by
    match a with | ⟨0, _⟩ => rfl | ⟨1, _⟩ => rfl | ⟨2, _⟩ => rfl | ⟨3, _⟩ => rfl
  have er : ridx_main_v10 (ix4 b h t s) k = ix4 b h s k := funext fun a => by
    match a with | ⟨0, _⟩ => rfl | ⟨1, _⟩ => rfl | ⟨2, _⟩ => rfl | ⟨3, _⟩ => rfl
  rw [el, er, v4_at, v4_at]

/-- The row norm broadcast along s: entry (b,h,t,s) is ‖K_t‖². -/
theorem v13_at (b : Fin 2) (h : Fin 16) (t s : Fin 2048) :
    val_main_v13 (F := Ideal) x0 x1 (ix4 b h t s) = L2Attn.sqn (L2Attn.keys (L2Attn.proj x0 x1) b h) t := by
  rw [val_main_v13_apply, val_main_v11_apply]
  have e : idx_main_v11 (idx_main_v13 (ix4 b h t s)) = ix3 b h t := funext fun a => by
    match a with | ⟨0, _⟩ => rfl | ⟨1, _⟩ => rfl | ⟨2, _⟩ => rfl
  rw [e, v9_at]

/-- The column norm broadcast along t: entry (b,h,t,s) is ‖K_s‖². -/
theorem v14_at (b : Fin 2) (h : Fin 16) (t s : Fin 2048) :
    val_main_v14 (F := Ideal) x0 x1 (ix4 b h t s) = L2Attn.sqn (L2Attn.keys (L2Attn.proj x0 x1) b h) s := by
  rw [val_main_v14_apply, val_main_v12_apply]
  have e : idx_main_v12 (idx_main_v14 (ix4 b h t s)) = ix3 b h s := funext fun a => by
    match a with | ⟨0, _⟩ => rfl | ⟨1, _⟩ => rfl | ⟨2, _⟩ => rfl
  rw [e, v9_at]

/-- The scores: entry (b,h,t,s) is (−((‖K_t‖² + ‖K_s‖²) − 2·⟨K_t,K_s⟩))·(1/8). -/
theorem v21_at (b : Fin 2) (h : Fin 16) (t s : Fin 2048) :
    val_main_v21 (F := Ideal) x0 x1 (ix4 b h t s) = L2Attn.score (L2Attn.keys (L2Attn.proj x0 x1) b h) t s := by
  rw [val_main_v21_apply, val_main_v19_apply, val_main_v18_apply, val_main_v15_apply, val_main_v17_apply,
    val_main_v16_apply, val_main_cst_0_apply, val_main_v20_apply, val_main_cst_1_apply,
    v13_at, v14_at, v10_at]
  simp only [Ideal.mulf_def, Ideal.hostNegf_def, Ideal.negf_def, Ideal.subf_def, Ideal.addf_def, Ideal.ofBits_def]
  rfl

end Cert.ReferenceIdeal.RefValue

end
-- ==== Proof.Ref.Softmax.lean ====
/-
  The reference's softmax over each row of scores, read entry by entry.

  The row maximum is a fold of max over the 2048 columns started from the word of −∞; the program then takes the
  maximum of −∞ and that fold, which changes nothing because −∞ is the least extended real.  The unnormalised
  weight is exp(score − row maximum), the normaliser their sum over the row (started from the word 0), and the
  attention weight the quotient.
-/
import proofs.«154070_j61375082660372_2_alg».proof.Proof.Gen.ReferenceIdeal.Read
import proofs.«154070_j61375082660372_2_alg».proof.Proof.Ref.Score
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : X0) (x1 : X1)

/-- Reducing the last of the four axes leaves the first three. -/
theorem reduces_last : S2x16x2048x2048.Reduces [3] S2x16x2048 := by decide

/-- The reduced index (b,h,t) with column k put back is (b,h,t,k). -/
theorem lift_at (b : Fin 2) (h : Fin 16) (t : Fin 2048) (k : Fin (S2x16x2048x2048.size 3)) :
    reduces_last.lift (ix3 b h t) k = ix4 b h t (⟨k.val, k.isLt⟩ : Fin 2048) := by
  funext c; apply Fin.ext
  fin_cases c <;> rfl

/-- The word 0xFF800000 is −∞, the least extended real. -/
theorem negInf_eq_bot : Ideal.ofBits .f32 0xFF800000#32 = (⊥ : EReal) := by
  simp [Ideal.ofBits, Ideal.ieee]

/-- The row maxima: entry (b,h,t) is the fold of max over the row's scores from −∞. -/
theorem v22_at (b : Fin 2) (h : Fin 16) (t : Fin 2048) :
    val_main_v22 (F := Ideal) x0 x1 (ix3 b h t) = L2Attn.rowMax (L2Attn.keys (L2Attn.proj x0 x1) b h) t := by
  unfold val_main_v22
  refine (Host.reduce_eq_fold_single (FloatOps.maximumf (F := Ideal) (φ := .f32)) (val_main_v21 (F := Ideal) x0 x1)
    (val_main_cst_2 (F := Ideal)) reducesTo_S2x16x2048x2048_S2x16x2048_d3 reduces_last h_S_ (ix3 b h t)).trans ?_
  have hf : (val_main_v21 (F := Ideal) x0 x1 ∘ reduces_last.lift (ix3 b h t))
      = fun s : Fin 2048 => L2Attn.score (L2Attn.keys (L2Attn.proj x0 x1) b h) t s :=
    funext fun k => by rw [Function.comp_apply, lift_at, v21_at]; rfl
  unfold L2Attn.rowMax
  exact congrArg (fun f => Finset.fold max L2Attn.negInf f (Finset.univ : Finset (Fin 2048))) hf

/-- Taking the maximum with −∞ once more changes nothing. -/
theorem v24_at (b : Fin 2) (h : Fin 16) (t : Fin 2048) :
    val_main_v24 (F := Ideal) x0 x1 (ix3 b h t) = L2Attn.rowMax (L2Attn.keys (L2Attn.proj x0 x1) b h) t := by
  rw [val_main_v24_apply, val_main_v23_apply, val_main_cst_3_apply, v22_at, Ideal.maximumf_def, Ideal.ofBits_def,
    negInf_eq_bot]
  exact max_bot_left _

/-- The unnormalised weights: entry (b,h,t,s) is exp(score[t,s] − rowMax[t]). -/
theorem v28_at (b : Fin 2) (h : Fin 16) (t s : Fin 2048) :
    val_main_v28 (F := Ideal) x0 x1 (ix4 b h t s) = L2Attn.expo (L2Attn.keys (L2Attn.proj x0 x1) b h) t s := by
  rw [val_main_v28_apply, val_main_v27_apply, val_main_v26_apply, val_main_v25_apply]
  have e : idx_main_v25 (idx_main_v26 (ix4 b h t s)) = ix3 b h t := funext fun a => by
    match a with | ⟨0, _⟩ => rfl | ⟨1, _⟩ => rfl | ⟨2, _⟩ => rfl
  rw [e, v24_at, v21_at, Ideal.hostUnary_exp_def, Ideal.subf_def]
  rfl

/-- The normalisers: entry (b,h,t) is Σ_s expo[t,s]. -/
theorem v29_at (b : Fin 2) (h : Fin 16) (t : Fin 2048) :
    val_main_v29 (F := Ideal) x0 x1 (ix3 b h t) = L2Attn.denom (L2Attn.keys (L2Attn.proj x0 x1) b h) t := by
  rw [val_main_v29_apply, val_main_cst_4_apply, Ideal.ofBits_def, Ideal.ofBits_zero_f32, zero_add]
  unfold L2Attn.denom
  refine Finset.sum_congr rfl fun k _ => ?_
  have e : idx_main_v29 (ix3 b h t) k = ix4 b h t k := funext fun a => by
    match a with | ⟨0, _⟩ => rfl | ⟨1, _⟩ => rfl | ⟨2, _⟩ => rfl | ⟨3, _⟩ => rfl
  rw [e, v28_at]

/-- The attention weights: entry (b,h,t,s) is expo[t,s] / denom[t]. -/
theorem v32_at (b : Fin 2) (h : Fin 16) (t s : Fin 2048) :
    val_main_v32 (F := Ideal) x0 x1 (ix4 b h t s) = L2Attn.attn (L2Attn.keys (L2Attn.proj x0 x1) b h) t s := by
  rw [val_main_v32_apply, val_main_v31_apply, val_main_v30_apply]
  have e : idx_main_v30 (idx_main_v31 (ix4 b h t s)) = ix3 b h t := funext fun a => by
    match a with | ⟨0, _⟩ => rfl | ⟨1, _⟩ => rfl | ⟨2, _⟩ => rfl
  rw [e, v29_at, v28_at, Ideal.hostDivf_def]
  rfl

end Cert.ReferenceIdeal.RefValue

end
-- ==== Proof.Ref.RefIsG.lean ====
/-
  The reference computes the function G of the specification.

  Each head's output is the contraction of its attention weights with its values; the heads are moved side by side
  (entry (b,t,64·h+d) of the merged array is head h's output at (t,d)); the result is the contraction of the merged
  array with the output weight plus the bias broadcast over batch and position.
-/
import proofs.«154070_j61375082660372_2_alg».proof.Proof.Gen.ReferenceIdeal.Read
import proofs.«154070_j61375082660372_2_alg».proof.Proof.Ref.Softmax

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : X0) (x1 : X1)

/-- One head's output: entry (b,h,t,d) is Σ_s attn[t,s]·V[s,d]. -/
theorem v33_at (b : Fin 2) (h : Fin 16) (t : Fin 2048) (d : Fin 64) :
    val_main_v33 (F := Ideal) x0 x1 (ix4 b h t d)
      = L2Attn.headOut (L2Attn.keys (L2Attn.proj x0 x1) b h) (L2Attn.vals (L2Attn.proj x0 x1) b h) t d := by
  rw [val_main_v33_apply]
  unfold L2Attn.headOut
  refine Finset.sum_congr rfl fun k _ => ?_
  have el : lidx_main_v33 (ix4 b h t d) k = ix4 b h t k := funext fun a => by
    match a with | ⟨0, _⟩ => rfl | ⟨1, _⟩ => rfl | ⟨2, _⟩ => rfl | ⟨3, _⟩ => rfl
  have er : ridx_main_v33 (ix4 b h t d) k = ix4 b h k d := funext fun a => by
    match a with | ⟨0, _⟩ => rfl | ⟨1, _⟩ => rfl | ⟨2, _⟩ => rfl | ⟨3, _⟩ => rfl
  rw [el, er, v32_at, v7_at]

/-- The heads side by side: entry (b,t,j) is head j / 64's output at (t, j mod 64). -/
theorem v35_at (b : Fin 2) (t : Fin 2048) (j : Fin 1024) :
    val_main_v35 (F := Ideal) x0 x1 (ix3 b t j) = L2Attn.merged (L2Attn.proj x0 x1) b t j := by
  rw [val_main_v35_apply, val_main_v34_apply]
  have e : idx_main_v34 (idx_main_v35 (ix3 b t j))
      = ix4 b (⟨j.val / 64, by have := j.isLt; omega⟩ : Fin 16) t (⟨j.val % 64, Nat.mod_lt _ (by decide)⟩ : Fin 64) :=
    funext fun a => Fin.ext (by
      have hb := b.isLt; have ht := t.isLt; have hj := j.isLt
      match a with
      | ⟨0, _⟩ => show ((b.val * 2048 + t.val) * 1024 + j.val) / 2097152 = b.val; omega
      | ⟨1, _⟩ => show ((b.val * 2048 + t.val) * 1024 + j.val) / 64 % 16 = j.val / 64; omega
      | ⟨2, _⟩ => show ((b.val * 2048 + t.val) * 1024 + j.val) / 1024 % 2048 = t.val; omega
      | ⟨3, _⟩ => show ((b.val * 2048 + t.val) * 1024 + j.val) % 64 = j.val % 64; omega)
  rw [e, v33_at]
  rfl

/-- THE REFERENCE IS G: its result is the output projection of the merged heads plus the bias. -/
theorem ref_is_G (x0 : X0) (x1 : X1) (x2 : X2) (x3 : X3) :
    val_main_v39 (F := Ideal) x0 x1 x2 x3 = L2Attn.G x0 x1 x2 x3 := by
  funext i
  obtain ⟨b, t, e, rfl⟩ : ∃ (b : Fin 2) (t : Fin 2048) (e : Fin 1024), i = ix3 b t e := ⟨i 0, i 1, i 2, eq_ix3 i⟩
  rw [val_main_v39_apply, val_main_v36_apply, val_main_v38_apply, val_main_v37_apply, Ideal.addf_def]
  have e3 : idx_main_v37 (idx_main_v38 (ix3 b t e)) = ix1 e := funext fun a => by
    match a with | ⟨0, _⟩ => rfl
  rw [e3]
  show _ = (∑ j : Fin 1024, L2Attn.merged (L2Attn.proj x0 x1) b t j * x2 (ix2 e j)) + x3 (ix1 e)
  refine congrArg (· + x3 (ix1 e)) (Finset.sum_congr rfl fun k _ => ?_)
  have el : lidx_main_v36 (ix3 b t e) k = ix3 b t k := funext fun a => by
    match a with | ⟨0, _⟩ => rfl | ⟨1, _⟩ => rfl | ⟨2, _⟩ => rfl
  have er : ridx_main_v36 (ix3 b t e) k = ix2 e k := funext fun a => by
    match a with | ⟨0, _⟩ => rfl | ⟨1, _⟩ => rfl
  rw [el, er, v35_at]

end Cert.ReferenceIdeal.RefValue

end
-- ==== Proof.Ref.Finite.lean ====
/-
  Finiteness of the inputs, and of the joint projection.

  The precondition says that |x| < +∞ holds at every entry of each of the four inputs (four conjunctions over all
  entries, joined by "and").  An extended real whose absolute value max(x, −x) is below +∞ is neither −∞ nor +∞,
  so it is a real number.  A finite sum of products of real numbers is a real number, so every entry of the joint
  projection is one too.
-/
import proofs.«154070_j61375082660372_2_alg».proof.Proof.Gen.Pre_finite_inputs
import proofs.«154070_j61375082660372_2_alg».proof.Proof.Spec
import Idealize.ShloMosaic.Lib.ReduceAll
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx

/-- The word 0x7F800000 is +∞, the greatest extended real. -/
theorem posInf_eq_top : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison |x| < +∞ coming out true says x is a real number. -/
theorem real_of_cmp (x : EReal)
    (h : FloatOps.cmpf (F := Ideal) (φ := .f32) .olt (FloatOps.hostAbsf x) (FloatOps.ofBits .f32 0x7F800000#32) = 1#1) :
    ∃ r : ℝ, x = (r : EReal) := by
  rw [Ideal.hostAbsf_def, Ideal.absf_def, Ideal.cmpf_def, Ideal.ofBits_def, posInf_eq_top] at h
  change BitVec.ofBool (decide (max x (-x) < (⊤ : EReal))) = 1#1 at h
  refine real_of_abs_lt_top x ?_
  by_contra hn
  rw [decide_eq_false hn] at h
  exact absurd h (by decide)

/-- The scalar shape has one index. -/
instance : Subsingleton Cert.Pre_finite_inputs.S_.Idx := ⟨fun a b => funext fun d => d.elim0⟩

/-- FROM THE PRECONDITION: every entry of each of the four inputs is a real number. -/
theorem finite_of_pre [Cert.Pre_finite_inputs.Facts]
    (a0 : FVec Ideal Cert.Pre_finite_inputs.S2x2048x1024 .f32) (a1 : FVec Ideal Cert.Pre_finite_inputs.S2048x1024 .f32)
    (a2 : FVec Ideal Cert.Pre_finite_inputs.S1024x1024 .f32) (a3 : FVec Ideal Cert.Pre_finite_inputs.S1024 .f32)
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ix0
  dsimp only [Cert.Pre_finite_inputs.fn, Cert.Pre_finite_inputs.fn_part1] at h0
  change IntOp.andi (IntOp.andi (IntOp.andi _ _) _) _ = 1#1 at h0
  obtain ⟨h012, e3⟩ := IntOp.andi_eq_one.1 h0
  obtain ⟨h01, e2⟩ := IntOp.andi_eq_one.1 h012
  obtain ⟨e0, e1⟩ := IntOp.andi_eq_one.1 h01
  exact ⟨fun i => real_of_cmp (a0 i) (Host.reduce_andi_all _ _ _ _ _ e0 i),
    fun i => real_of_cmp (a1 i) (Host.reduce_andi_all _ _ _ _ _ e1 i),
    fun i => real_of_cmp (a2 i) (Host.reduce_andi_all _ _ _ _ _ e2 i),
    fun i => real_of_cmp (a3 i) (Host.reduce_andi_all _ _ _ _ _ e3 i)⟩

/-- A finite sum of real numbers, read in the extended reals, is a real number. -/
theorem exists_real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := hf a (Finset.mem_insert_self a s)
    obtain ⟨q, hq⟩ := ih fun i hi => hf i (Finset.mem_insert_of_mem hi)
    exact ⟨r + q, by rw [Finset.sum_insert ha, hr, hq, EReal.coe_add]⟩

/-- Every entry of the joint projection of real inputs is a real number. -/
theorem proj_real (x : L2Attn.SX.Idx → EReal) (w : L2Attn.SW.Idx → EReal)
    (hx : ∀ i, ∃ r : ℝ, x i = (r : EReal)) (hw : ∀ i, ∃ r : ℝ, w i = (r : EReal))
    (b : Fin 2) (t : Fin 2048) (e : Fin 2048) : ∃ r : ℝ, L2Attn.proj x w b t e = (r : EReal) := by
  unfold L2Attn.proj
  refine exists_real_sum _ _ fun c _ => ?_
  obtain ⟨p, hp⟩ := hx (ix3 b t c)
  obtain ⟨q, hq⟩ := hw (ix2 e c)
  exact ⟨p * q, by rw [hp, hq, EReal.coe_mul]⟩

end Cert.ReferenceIdeal.RefValue

end
-- ==== Proof.Ref.FinitePre.lean ====
/-
  The precondition on the inputs, decoded for the kernel read over the extended reals and for the reference: on
  every device each entry of the four argument arrays is a real number.
-/
import proofs.«154070_j61375082660372_2_alg».proof.Defs
import proofs.«154070_j61375082660372_2_alg».proof.Proof.Ref.Finite

noncomputable section

namespace Cert.ReferenceIdeal.RefValue

open Idealize.ShloMosaic Idealize.SL.Sem

/-- Under the precondition of the kernel read over the extended reals, every entry of its four arguments is a real
    number. -/
theorem finite_of_pre_KernelIdeal [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal)) :=
  finite_of_pre _ _ _ _ (h c)

/-- The same for the reference's precondition. -/
theorem finite_of_pre_ReferenceIdeal [Cert.Pre_finite_inputs.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ i, ∃ r : ℝ, m ((c.tc : Thread Cert.ReferenceIdeal.nD Cert.ReferenceIdeal.τ).loc Cert.ReferenceIdeal.main_arg0) i = (r : EReal))
      ∧ (∀ i, ∃ r : ℝ, m ((c.tc : Thread Cert.ReferenceIdeal.nD Cert.ReferenceIdeal.τ).loc Cert.ReferenceIdeal.main_arg1) i = (r : EReal))
      ∧ (∀ i, ∃ r : ℝ, m ((c.tc : Thread Cert.ReferenceIdeal.nD Cert.ReferenceIdeal.τ).loc Cert.ReferenceIdeal.main_arg2) i = (r : EReal))
      ∧ (∀ i, ∃ r : ℝ, m ((c.tc : Thread Cert.ReferenceIdeal.nD Cert.ReferenceIdeal.τ).loc Cert.ReferenceIdeal.main_arg3) i = (r : EReal)) :=
  finite_of_pre _ _ _ _ (h c)

end Cert.ReferenceIdeal.RefValue

end
-- ==== Proof.Val.Host.lean ====
/-
  What the host operations before the first kernel feed it, read at an index: the flattened input, row r of which is
  row (r / 2048, r % 2048) of x, and the weight re-laid so that the projection's columns come out head-major —
  column e' = 1024·k' + 64·h + d of the re-laid weight is row 32·d + 16·k' + h of w (a reshape to (d, k', h), a rotation
  to (k', h, d), a reshape back, a transposition).  The roundings to the narrower format are the identity on
  extended reals.
-/
import proofs.«154070_j61375082660372_2_alg».proof.Proof.KI.Run
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-- The four inputs as plain arrays of extended reals. -/
abbrev xA : S2x2048x1024.Idx → EReal := m ((c : Thread nD τ).loc main_arg0)
abbrev wA : S2048x1024.Idx → EReal := m ((c : Thread nD τ).loc main_arg1)
abbrev pA : S1024x1024.Idx → EReal := m ((c : Thread nD τ).loc main_arg2)
abbrev bA : S1024.Idx → EReal := m ((c : Thread nD τ).loc main_arg3)

/-- Row r of the flattened input is row (r / 2048, r % 2048) of x. -/
theorem v6_at (r : Fin 4096) (k : Fin 1024) :
    (Hand.V1 m c main_v6 : S4096x1024.Idx → EReal) (ix2 r k)
      = xA m c (ix3 ⟨r.val / 2048, by omega⟩ ⟨r.val % 2048, Nat.mod_lt _ (by decide)⟩ k) := by
  have e : (Hand.V1 m c main_v6 : S4096x1024.Idx → EReal)
      = truncf (F := Ideal) .bf16 (shapeCast S4096x1024 (xA m c) shapeCasts_S2x2048x1024_S4096x1024) bitsLt_bf16_f32 := by
    dsimp only [Hand.V1, Hand.W1, Hand.W0, hostOps0]; after_results; rfl
  rw [e]
  refine (shapeCast_apply _ _ (ix2 r k) (ix3 ⟨r.val / 2048, by omega⟩ ⟨r.val % 2048, Nat.mod_lt _ (by decide)⟩ k) ?_)
  rw [Shape.rowMajor_val_three, Shape.rowMajor_val_two]
  show (r.val / 2048 * 2048 + r.val % 2048) * 1024 + k.val = r.val * 1024 + k.val
  omega

/-- Column e' = 1024·k' + 64·h + d of the permuted, transposed weight is row 32·d + 16·k' + h of w. -/
theorem v4_at (k : Fin 1024) (e' : Fin 2048) :
    (Hand.V1 m c main_v4 : S1024x2048.Idx → EReal) (ix2 k e')
      = wA m c (ix2 ⟨e'.val % 64 * 32 + e'.val / 1024 * 16 + e'.val / 64 % 16, by omega⟩ k) := by
  have e : (Hand.V1 m c main_v4 : S1024x2048.Idx → EReal)
      = truncf (F := Ideal) .bf16 (transpose S1024x2048 [1, 0] (shapeCast S2048x1024 (transpose S2x16x64x1024 [1, 2, 0, 3]
          (shapeCast S64x2x16x1024 (wA m c) shapeCasts_S2048x1024_S64x2x16x1024) transposes_S64x2x16x1024_S2x16x64x1024_1_2_0_3)
          shapeCasts_S2x16x64x1024_S2048x1024) transposes_S2048x1024_S1024x2048_1_0) bitsLt_bf16_f32 := by
    dsimp only [Hand.V1, Hand.W1, Hand.W0, hostOps0]; after_results; rfl
  rw [e]
  rw [truncf_apply]
  refine (transpose_apply [1, 0] _ transposes_S2048x1024_S1024x2048_1_0 (ix2 k e') (ix2 e' k) (fun b => by match b with | ⟨0, _⟩ => rfl | ⟨1, _⟩ => rfl)).trans ?_
  refine (shapeCast_apply _ _ (ix2 e' k) (ix4 (⟨e'.val / 1024, by omega⟩ : Fin 2) (⟨e'.val / 64 % 16, by omega⟩ : Fin 16) (⟨e'.val % 64, by omega⟩ : Fin 64) k) ?_).trans ?_
  · rw [Shape.rowMajor_val_four, Shape.rowMajor_val_two]
    show ((e'.val / 1024 * 16 + e'.val / 64 % 16) * 64 + e'.val % 64) * 1024 + k.val = e'.val * 1024 + k.val
    have := e'.isLt; omega
  refine (transpose_apply [1, 2, 0, 3] _ transposes_S64x2x16x1024_S2x16x64x1024_1_2_0_3 _ (ix4 (⟨e'.val % 64, by omega⟩ : Fin 64) (⟨e'.val / 1024, by omega⟩ : Fin 2) (⟨e'.val / 64 % 16, by omega⟩ : Fin 16) k)
    (fun b => by match b with | ⟨0, _⟩ => rfl | ⟨1, _⟩ => rfl | ⟨2, _⟩ => rfl | ⟨3, _⟩ => rfl)).trans ?_
  refine shapeCast_apply _ _ _ (ix2 ⟨e'.val % 64 * 32 + e'.val / 1024 * 16 + e'.val / 64 % 16, by omega⟩ k) ?_
  rw [Shape.rowMajor_val_four, Shape.rowMajor_val_two]
  show (e'.val % 64 * 32 + e'.val / 1024 * 16 + e'.val / 64 % 16) * 1024 + k.val = ((e'.val % 64 * 2 + e'.val / 1024) * 16 + e'.val / 64 % 16) * 1024 + k.val
  omega
end Cert.KernelIdeal.HandValue
end
-- ==== Proof.Val.HostIn.lean ====
/-
  What the third kernel is fed, and which columns of the re-laid weight hold the keys and the values.

  The output weight p and the bias β are untouched by everything before the third kernel: no host operation writes
  them and no kernel's window array is one of them, so when the host operations in front of the third kernel run they
  still hold their launch contents.  Those operations transpose p (entry (k,e) of the result is p[e,k]; the rounding
  to the narrower format is the identity on extended reals) and view β as one row.

  In the re-laid joint weight, column 1024·k' + 64·h + d is row 32·d + 16·k' + h of w: for k' = 0 the column that
  holds coordinate d of head h's key, for k' = 1 of its value.
-/
import proofs.«154070_j61375082660372_2_alg».proof.Proof.KI.Run
import proofs.«154070_j61375082660372_2_alg».proof.Proof.Val.Host
import proofs.«154070_j61375082660372_2_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-- A buffer that neither of the first two host stretches writes, that is no window array of the first kernel and is
    not the second kernel's output, holds its launch contents when the second kernel has finished. -/
theorem W4_keep (r : Ref sig .tc) (h0 : r ∉ hostOps0_W) (h1 : r ∉ hostOps1_W)
    (ha0 : ∀ w, Pipeline.arrRef spec0 w ≠ r) (h9 : r ≠ main_v9) :
    Hand.W4 m c (Proc.devRef .tc r) = m ((c : Thread nD τ).loc r) :=
  (Hand.W4_of_ne m c r h9).trans <| (StableHlo.after_of_writes_sub hostOps1 _ hostOps1_writes h1).trans <|
  (Hand.W2_of_ne m c r ha0).trans <| (StableHlo.after_of_writes_sub hostOps0 _ hostOps0_writes h0).trans rfl

/-- The transposed output weight: entry (k,e) is p[e,k]. -/
theorem v12_at (k e : Fin 1024) :
    (Hand.V5 m c main_v12 : S1024x1024.Idx → EReal) (ix2 k e) = pA m c (ix2 e k) := by
  have e5 : (Hand.V5 m c main_v12 : S1024x1024.Idx → EReal)
      = truncf (F := Ideal) .bf16 (transpose S1024x1024 [1, 0]
          (Hand.W4 m c (Proc.devRef .tc main_arg2) : S1024x1024.Idx → EReal) transposes_S1024x1024_S1024x1024_1_0) bitsLt_bf16_f32 := by
    dsimp only [Hand.V5, Hand.W5, hostOps2]; after_results; all_goals rfl
  rw [e5, truncf_apply]
  refine (transpose_apply [1, 0] _ transposes_S1024x1024_S1024x1024_1_0 (ix2 k e) (ix2 e k)
    (fun b => by match b with | ⟨0, _⟩ => rfl | ⟨1, _⟩ => rfl)).trans ?_
  exact congrFun (W4_keep m c main_arg2 (by decide) (by decide) (by decide) (by decide)) (ix2 e k)

/-- The bias as one row: entry (0,e) is β[e]. -/
theorem v13_at (e : Fin 1024) :
    (Hand.V5 m c main_v13 : S1x1024.Idx → EReal) (ix2 (0 : Fin 1) e) = bA m c (ix1 e) := by
  have e5 : (Hand.V5 m c main_v13 : S1x1024.Idx → EReal)
      = shapeCast S1x1024 (Hand.W4 m c (Proc.devRef .tc main_arg3) : S1024.Idx → EReal) shapeCasts_S1024_S1x1024 := by
    dsimp only [Hand.V5, Hand.W5, hostOps2]; after_results; all_goals rfl
  rw [e5]
  refine (shapeCast_apply _ _ (ix2 (0 : Fin 1) e) (ix1 e) ?_).trans ?_
  · rw [Shape.rowMajor_val_one, Shape.rowMajor_val_two]
    show e.val = 0 * 1024 + e.val
    omega
  exact congrFun (W4_keep m c main_arg3 (by decide) (by decide) (by decide) (by decide)) (ix1 e)

omit m c in
/-- Column e' = 1024·k' + 64·h + d of the re-laid weight is row 32·d + 16·k' + h of w. -/
theorem col_of_val (e' : Fin 2048) (k' : Fin 2) (h : Fin 16) (d : Fin 64)
    (he : e'.val = k'.val * 1024 + h.val * 64 + d.val)
    (p : e'.val % 64 * 32 + e'.val / 1024 * 16 + e'.val / 64 % 16 < 2048) :
    (⟨e'.val % 64 * 32 + e'.val / 1024 * 16 + e'.val / 64 % 16, p⟩ : Fin 2048) = Cert.L2Attn.col k' h d := by
  refine Fin.ext ?_
  show e'.val % 64 * 32 + e'.val / 1024 * 16 + e'.val / 64 % 16 = d.val * 32 + k'.val * 16 + h.val
  have := k'.isLt; have := h.isLt; have := d.isLt
  omega

omit m c in
/-- The keys' columns: at e' = 64·h + d the row of w is 32·d + h. -/
theorem col_keys (h : Fin 16) (d : Fin 64) (q : h.val * 64 + d.val < 2048)
    (p : (⟨h.val * 64 + d.val, q⟩ : Fin 2048).val % 64 * 32 + (⟨h.val * 64 + d.val, q⟩ : Fin 2048).val / 1024 * 16
          + (⟨h.val * 64 + d.val, q⟩ : Fin 2048).val / 64 % 16 < 2048) :
    (⟨(⟨h.val * 64 + d.val, q⟩ : Fin 2048).val % 64 * 32 + (⟨h.val * 64 + d.val, q⟩ : Fin 2048).val / 1024 * 16
          + (⟨h.val * 64 + d.val, q⟩ : Fin 2048).val / 64 % 16, p⟩ : Fin 2048) = Cert.L2Attn.col 0 h d :=
  col_of_val ⟨h.val * 64 + d.val, q⟩ 0 h d (by show h.val * 64 + d.val = 0 * 1024 + h.val * 64 + d.val; omega) p

omit m c in
/-- The values' columns: at e' = 1024 + 64·h + d the row of w is 32·d + 16 + h. -/
theorem col_vals (h : Fin 16) (d : Fin 64) (q : 1024 + h.val * 64 + d.val < 2048)
    (p : (⟨1024 + h.val * 64 + d.val, q⟩ : Fin 2048).val % 64 * 32 + (⟨1024 + h.val * 64 + d.val, q⟩ : Fin 2048).val / 1024 * 16
          + (⟨1024 + h.val * 64 + d.val, q⟩ : Fin 2048).val / 64 % 16 < 2048) :
    (⟨(⟨1024 + h.val * 64 + d.val, q⟩ : Fin 2048).val % 64 * 32 + (⟨1024 + h.val * 64 + d.val, q⟩ : Fin 2048).val / 1024 * 16
          + (⟨1024 + h.val * 64 + d.val, q⟩ : Fin 2048).val / 64 % 16, p⟩ : Fin 2048) = Cert.L2Attn.col 1 h d :=
  col_of_val ⟨1024 + h.val * 64 + d.val, q⟩ 1 h d (by show 1024 + h.val * 64 + d.val = 1 * 1024 + h.val * 64 + d.val; omega) p

/-- The re-laid weight at a key column: entry (k, 64·h + d) is w[32·d + h, k]. -/
theorem v4_keys (k : Fin 1024) (h : Fin 16) (d : Fin 64) (q : h.val * 64 + d.val < 2048) :
    (Hand.V1 m c main_v4 : S1024x2048.Idx → EReal) (ix2 k (⟨h.val * 64 + d.val, q⟩ : Fin 2048))
      = wA m c (ix2 (Cert.L2Attn.col 0 h d) k) :=
  (v4_at m c k ⟨h.val * 64 + d.val, q⟩).trans (congrArg (fun r => wA m c (ix2 r k)) (col_keys h d q _))

/-- The re-laid weight at a value column: entry (k, 1024 + 64·h + d) is w[32·d + 16 + h, k]. -/
theorem v4_vals (k : Fin 1024) (h : Fin 16) (d : Fin 64) (q : 1024 + h.val * 64 + d.val < 2048) :
    (Hand.V1 m c main_v4 : S1024x2048.Idx → EReal) (ix2 k (⟨1024 + h.val * 64 + d.val, q⟩ : Fin 2048))
      = wA m c (ix2 (Cert.L2Attn.col 1 h d) k) :=
  (v4_at m c k ⟨1024 + h.val * 64 + d.val, q⟩).trans (congrArg (fun r => wA m c (ix2 r k)) (col_vals h d q _))

end Cert.KernelIdeal.HandValue

end
-- ==== Proof.Val.Arr0.lean ====
/-
  The first kernel at the ideal values (extended reals, where no operation rounds): the array it leaves is the
  matrix product of the two arrays it finds.  Entry (p, q) of the block a grid point stores is the inner product of
  row p of the left block with column q of the right block; the left block at point t is rows 1024·t … 1024·t + 1023
  of the left array and the right block is the whole right array, so what point t writes back is block t of the
  product; and row r of the result lies in the block of point r / 1024, so the four blocks cover the result.
-/
import proofs.«154070_j61375082660372_2_alg».proof.Proof.KI.Reg0
import Idealize.ShloMosaic.Lib.Pipeline.Value
import Idealize.ShloMosaic.Lib.ValueIdx
import Idealize.ShloMosaic.PureOps.Ideal.Laws

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx

/-! # Region 0 at the ideal values: the array it leaves is the matrix product of the two arrays it finds -/

theorem hz0 : (![0, 0] : Fin 2 → Nat) = fun _ => 0 := funext fun a => by fin_cases a <;> rfl

/-- The contraction record of the body's product: rows × 1024 times 1024 × columns. -/
abbrev D0 := dot_S1024x1024_S1024x2048_S1024x2048_1_0_0_1_n_n

/-- The left operand's index at output (p, q) and contraction coordinate k is (p, k). -/
theorem D0_lhs (p : Fin 1024) (q : Fin 2048) (k : Fin 1024) :
    D0.lhsIdx (ix2 p q) ((contrEquiv1 D0 1024 rfl rfl).symm k) = ix2 p k := funext fun a => Fin.ext (by
  match a with
  | ⟨0, _⟩ =>
    show (D0.lhsIdx (ix2 p q) _ 0).val = p.val
    unfold DotDims.lhsIdx
    rw [dif_neg (show ¬(0 : Fin S1024x1024.rank) ∈ D0.lhsBatch by decide), dif_pos (show (0 : Fin S1024x1024.rank) ∈ D0.lhsNonContracting by decide)]
    rfl
  | ⟨1, _⟩ => exact (D0.lhsIdx_val_of_single rfl (ix2 p q) _).trans (contrEquiv1_symm_val D0 1024 rfl rfl k))

/-- The right operand's index there is (k, q). -/
theorem D0_rhs (p : Fin 1024) (q : Fin 2048) (k : Fin 1024) :
    D0.rhsIdx (ix2 p q) ((contrEquiv1 D0 1024 rfl rfl).symm k) = ix2 k q := funext fun a => Fin.ext (by
  match a with
  | ⟨0, _⟩ => exact (D0.rhsIdx_val_of_single rfl (ix2 p q) _).trans (contrEquiv1_symm_val D0 1024 rfl rfl k)
  | ⟨1, _⟩ =>
    show (D0.rhsIdx (ix2 p q) _ 1).val = q.val
    unfold DotDims.rhsIdx
    rw [dif_neg (show ¬(1 : Fin S1024x2048.rank) ∈ D0.rhsBatch by decide), dif_pos (show (1 : Fin S1024x2048.rank) ∈ D0.rhsNonContracting by decide)]
    rfl)

/-- The body's stored value at (p, q): the inner product of row p of the left block with column q of the right
    block. At the ideal values the product accumulates into zero with no rounding, and the rounding to bf16 is the
    identity. -/
theorem pay0_apply (x0 : Vec Ideal S1024x1024 .bf16) (x1 : Vec Ideal S1024x2048 .bf16) (p : Fin 1024) (q : Fin 2048) :
    k0_pay1 (F := Ideal) x0 x1 (ix2 p q) = ∑ k : Fin 1024, x0 (ix2 p k) * x1 (ix2 k q) := by
  unfold k0_pay1
  show FloatOps.matmul D0 none (shapeCast S1024x1024 x0 shapeCasts_S1024x1024_S1024x1024) (shapeCast S1024x2048 x1 shapeCasts_S1024x2048_S1024x2048)
    (constant (F := Ideal) S1024x2048 .f32 0x00000000#32) (ix2 p q) = _
  rw [shapeCast_self, shapeCast_self]
  refine (Ideal.matmul_constant_zero_apply (φ₁ := .bf16) (φ₂ := .bf16) D0 none x0 x1 (ix2 p q)).trans ?_
  rw [← Equiv.sum_comp (contrEquiv1 D0 1024 rfl rfl).symm]
  refine Finset.sum_congr rfl fun k _ => ?_
  rw [D0_lhs, D0_rhs]

/-! ## From blocks to the array -/

variable (V : (c : Dev nD) → (b : Ref sig .tc) → Buf (Elt Ideal) ((c : Thread nD τ).loc b))

/-- The matrix product of a 4096×1024 array and a 1024×2048 array: the left factor's row `i 0` against the right
    factor's column `i 1`. -/
abbrev prod0 (a : S4096x1024.Idx → EReal) (b : S1024x2048.Idx → EReal) : S4096x2048.Idx → EReal := fun i =>
  ∑ k : Fin 1024, a (ix2 (i 0) k) * b (ix2 k (i 1))

theorem prod0_apply (a : S4096x1024.Idx → EReal) (b : S1024x2048.Idx → EReal) (i : S4096x2048.Idx) :
    prod0 a b i = ∑ k : Fin 1024, a (ix2 (i 0) k) * b (ix2 k (i 1)) := rfl

/-- The block indices over the grid: the left factor's and the result's blocks move down the rows with the point,
    the right factor's block never moves. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left factor's block at point `t` is rows `1024 t … 1024 t + 1023` of its array. -/
theorem iblk0_0_apply (c : Dev nD) (t : Fin cfg0.N) (x : S1024x1024.Idx) (k : S4096x1024.Idx)
    (hk0 : (k 0).val = t.val * 1024 + (x 0).val) (hk1 : (k 1).val = (x 1).val) :
    (iblk0 V c 0 t : Vec Ideal S1024x1024 .bf16) x = (V c main_v6 : S4096x1024.Idx → EReal) k := by
  obtain ⟨e0, e1, -⟩ := idx_facts0 t
  unfold iblk0
  rw [View.read_apply]
  show (V c main_v6 : S4096x1024.Idx → EReal) _ = _
  refine congrArg _ ?_
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 1024 + 1 * (x 1).val = (k 1).val; rw [e1, hk1]; omega

/-- The right factor's block at every point is its whole array. -/
theorem iblk0_1_apply (c : Dev nD) (t : Fin cfg0.N) (x : S1024x2048.Idx) (k : S1024x2048.Idx)
    (hk0 : (k 0).val = (x 0).val) (hk1 : (k 1).val = (x 1).val) :
    (iblk0 V c 1 t : Vec Ideal S1024x2048 .bf16) x = (V c main_v4 : S1024x2048.Idx → EReal) k := by
  obtain ⟨-, -, e2, e3, -⟩ := idx_facts0 t
  unfold iblk0
  rw [View.read_apply]
  show (V c main_v4 : S1024x2048.Idx → EReal) _ = _
  refine congrArg _ ?_
  funext a
  apply Fin.ext
  match a with
  | ⟨0, _⟩ => show win0_1.index t (0 : Fin 2) * 1024 + 1 * (x 0).val = (k 0).val; rw [e2, hk0]; omega
  | ⟨1, _⟩ => show win0_1.index t (1 : Fin 2) * 2048 + 1 * (x 1).val = (k 1).val; rw [e3, hk1]; omega

/-- The body's stored value over blocks that are those rows and that whole array, at the block's element `j`, is the
    product at the array's index `i` that element sits at. -/
theorem pay0_blocks (t : ℕ) (a : S4096x1024.Idx → EReal) (b : S1024x2048.Idx → EReal)
    (x0 : Vec Ideal S1024x1024 .bf16) (x1 : Vec Ideal S1024x2048 .bf16)
    (h0 : ∀ (x : S1024x1024.Idx) (k : S4096x1024.Idx), (k 0).val = t * 1024 + (x 0).val → (k 1).val = (x 1).val → x0 x = a k)
    (h1 : ∀ (x : S1024x2048.Idx) (k : S1024x2048.Idx), (k 0).val = (x 0).val → (k 1).val = (x 1).val → x1 x = b k)
    (j : S1024x2048.Idx) (i : S4096x2048.Idx) (hi0 : (i 0).val = t * 1024 + (j 0).val) (hi1 : (i 1).val = (j 1).val) :
    k0_pay1 (F := Ideal) x0 x1 j = prod0 a b i := by
  obtain ⟨p, q, rfl⟩ : ∃ (p : Fin 1024) (q : Fin 2048), j = ix2 p q := ⟨j 0, j 1, eq_ix2 j⟩
  refine (pay0_apply x0 x1 p q).trans ?_
  refine Finset.sum_congr rfl fun k _ => ?_
  rw [h0 (ix2 p k) (ix2 (i 0) k) hi0 rfl, h1 (ix2 k q) (ix2 k (i 1)) rfl hi1]

/-- What point `t` writes back is block `t` of the product. -/
theorem flushed0_eq (c : Dev nD) (t : Fin cfg0.N) :
    (dat0 (F := Ideal) V c).flushed 2 t = ((cfg0.win 2).blk t).view.read (Elt Ideal) (prod0 (V c main_v6) (V c main_v4)) := by
  show (cfg0.win 2).cut (grid0.coords t) ((dat0 (F := Ideal) V c).after 2 t) = _
  rw [after0_2]
  unfold out0_2
  rw [View.canon_unit_zero hz0]
  simp only [View.ld_unit_zero (S := S1024x1024) hz0, View.ld_unit_zero (S := S1024x2048) hz0]
  obtain ⟨-, -, -, -, e4, e5⟩ := idx_facts0 t
  funext j
  rw [View.read_apply]
  show k0_pay1 (F := Ideal) (iblk0 V c 0 t) (iblk0 V c 1 t) j = prod0 (V c main_v6) (V c main_v4) (((cfg0.win 2).blk t).view.emb j)
  refine pay0_blocks t.val (V c main_v6) (V c main_v4) (iblk0 V c 0 t) (iblk0 V c 1 t) (iblk0_0_apply V c t) (iblk0_1_apply V c t) j _ ?_ ?_
  · show win0_2.index t (0 : Fin 2) * 1024 + 1 * (j 0).val = t.val * 1024 + (j 0).val; rw [e4]; omega
  · show win0_2.index t (1 : Fin 2) * 2048 + 1 * (j 1).val = (j 1).val; rw [e5]; omega

/-- An index of the result array is in point `t`'s block iff each coordinate is in the block's range on its axis. -/
theorem mem_blk0 (t : Fin cfg0.N) (i : S4096x2048.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v7).slice (win0_2.rect t)).set ↔ _
  rw [View.set_slice_whole, Rect.mem_set_unit]
  exact Iff.rfl

/-- Every index of the result array is in the block of the point its row falls in: row `r` in point `r / 1024`. -/
theorem cover0 (i : S4096x2048.Idx) : ∃ t : Fin cfg0.N, (cfg0.win 2).flush t = true ∧ i ∈ ((cfg0.win 2).blk t).view.set := by
  have hi0 : (i 0).val < 4096 := (i 0).isLt
  have hi1 : (i 1).val < 2048 := (i 1).isLt
  have hN : cfg0.N = 4 := N_0
  obtain ⟨t, ht⟩ : ∃ t : Fin cfg0.N, t.val = (i 0).val / 1024 := ⟨⟨(i 0).val / 1024, by omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; rw [e4, ht]; omega
  | ⟨1, _⟩ => show win0_2.index t (1 : Fin 2) * 2048 ≤ (i 1).val ∧ (i 1).val < win0_2.index t (1 : Fin 2) * 2048 + 2048; rw [e5]; omega

/-- The array region 0 leaves, at the ideal values: the matrix product of the left factor's array and the right
    factor's array as the region finds them. -/
theorem arr0 (c : Dev nD) : (dat0 (F := Ideal) V c).arrAt 2 cfg0.N = prod0 (V c main_v6) (V c main_v4) :=
  (dat0 (F := Ideal) V c).arrAt_eq_of_cover 2 (prod0 (V c main_v6) (V c main_v4)) (fun t _ => flushed0_eq V c t) cover0

end Cert.KernelIdeal.HandValue

end
-- ==== Proof.Val.Arr2.lean ====
/-
  The last kernel at the ideal values (extended reals, where no operation rounds): the array it leaves is the matrix
  product of the two arrays it finds, plus the bias row added to every row.  Entry (p, q) of the block a grid point
  stores is the inner product of row p of the left block with column q of the right block, plus entry q of the bias
  row; the left block at point t is rows 1024·t … 1024·t + 1023 of the left array and the other two blocks are their
  whole arrays, so what point t writes back is block t of that function; and row r of the result lies in the block
  of point r / 1024, so the four blocks cover the result.
-/
import proofs.«154070_j61375082660372_2_alg».proof.Proof.KI.Reg2
import Idealize.ShloMosaic.Lib.Pipeline.Value
import Idealize.ShloMosaic.Lib.ValueIdx
import Idealize.ShloMosaic.PureOps.Ideal.Laws

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx

/-! # Region 2 at the ideal values: the array it leaves is the matrix product of the two arrays it finds, plus the bias row -/

theorem hz2 : (![0, 0] : Fin 2 → Nat) = fun _ => 0 := funext fun a => by fin_cases a <;> rfl

/-- The contraction record of the body's product: rows × 1024 times 1024 × columns. -/
abbrev D2 := dot_S1024x1024_S1024x1024_S1024x1024_1_0_0_1_n_n

/-- The left operand's index at output (p, q) and contraction coordinate k is (p, k). -/
theorem D2_lhs (p : Fin 1024) (q : Fin 1024) (k : Fin 1024) :
    D2.lhsIdx (ix2 p q) ((contrEquiv1 D2 1024 rfl rfl).symm k) = ix2 p k := funext fun a => Fin.ext (by
  match a with
  | ⟨0, _⟩ =>
    show (D2.lhsIdx (ix2 p q) _ 0).val = p.val
    unfold DotDims.lhsIdx
    rw [dif_neg (show ¬(0 : Fin S1024x1024.rank) ∈ D2.lhsBatch by decide), dif_pos (show (0 : Fin S1024x1024.rank) ∈ D2.lhsNonContracting by decide)]
    rfl
  | ⟨1, _⟩ => exact (D2.lhsIdx_val_of_single rfl (ix2 p q) _).trans (contrEquiv1_symm_val D2 1024 rfl rfl k))

/-- The right operand's index there is (k, q). -/
theorem D2_rhs (p : Fin 1024) (q : Fin 1024) (k : Fin 1024) :
    D2.rhsIdx (ix2 p q) ((contrEquiv1 D2 1024 rfl rfl).symm k) = ix2 k q := funext fun a => Fin.ext (by
  match a with
  | ⟨0, _⟩ => exact (D2.rhsIdx_val_of_single rfl (ix2 p q) _).trans (contrEquiv1_symm_val D2 1024 rfl rfl k)
  | ⟨1, _⟩ =>
    show (D2.rhsIdx (ix2 p q) _ 1).val = q.val
    unfold DotDims.rhsIdx
    rw [dif_neg (show ¬(1 : Fin S1024x1024.rank) ∈ D2.rhsBatch by decide), dif_pos (show (1 : Fin S1024x1024.rank) ∈ D2.rhsNonContracting by decide)]
    rfl)

/-- The body's stored value at (p, q): the inner product of row p of the left block with column q of the right
    block, plus the bias row's entry q. At the ideal values the product accumulates into zero with no rounding. -/
theorem pay2_apply (x0 : Vec Ideal S1024x1024 .bf16) (x1 : Vec Ideal S1024x1024 .bf16) (x2 : Vec Ideal S1x1024 .f32) (p : Fin 1024) (q : Fin 1024) :
    k2_pay1 (F := Ideal) x0 x1 x2 (ix2 p q) = (∑ k : Fin 1024, x0 (ix2 p k) * x1 (ix2 k q)) + x2 (ix2 0 q) := by
  unfold k2_pay1
  show FloatOps.matmul D2 none (shapeCast S1024x1024 x0 shapeCasts_S1024x1024_S1024x1024) (shapeCast S1024x1024 x1 shapeCasts_S1024x1024_S1024x1024)
      (constant (F := Ideal) S1024x1024 .f32 0x00000000#32) (ix2 p q)
    + broadcastTo S1024x1024 (shapeCast S1x1024 x2 shapeCasts_S1x1024_S1x1024) broadcasts_S1x1024_S1024x1024 (ix2 p q) = _
  rw [shapeCast_self, shapeCast_self, shapeCast_self]
  refine congrArg₂ (· + ·) ?_ ?_
  · refine (Ideal.matmul_constant_zero_apply (φ₁ := .bf16) (φ₂ := .bf16) D2 none x0 x1 (ix2 p q)).trans ?_
    rw [← Equiv.sum_comp (contrEquiv1 D2 1024 rfl rfl).symm]
    refine Finset.sum_congr rfl fun k _ => ?_
    rw [D2_lhs, D2_rhs]
  · exact broadcastTo_apply x2 broadcasts_S1x1024_S1024x1024 (ix2 p q) (ix2 0 q) (fun a => by
      match a with
      | ⟨0, _⟩ => rfl
      | ⟨1, _⟩ => rfl)

/-! ## From blocks to the array -/

variable (V : (c : Dev nD) → (b : Ref sig .tc) → Buf (Elt Ideal) ((c : Thread nD τ).loc b))

/-- The matrix product of a 4096×1024 array and a 1024×1024 array, plus a row added to every row of the product. -/
abbrev prod2 (a : S4096x1024.Idx → EReal) (b : S1024x1024.Idx → EReal) (β : S1x1024.Idx → EReal) : S4096x1024.Idx → EReal := fun i =>
  (∑ k : Fin 1024, a (ix2 (i 0) k) * b (ix2 k (i 1))) + β (ix2 0 (i 1))

theorem prod2_apply (a : S4096x1024.Idx → EReal) (b : S1024x1024.Idx → EReal) (β : S1x1024.Idx → EReal) (i : S4096x1024.Idx) :
    prod2 a b β i = (∑ k : Fin 1024, a (ix2 (i 0) k) * b (ix2 k (i 1))) + β (ix2 0 (i 1)) := rfl

/-- The block indices over the grid: the left factor's and the result's blocks move down the rows with the point,
    the right factor's and the bias row's blocks never move. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The left factor's block at point `t` is rows `1024 t … 1024 t + 1023` of its array. -/
theorem iblk2_0_apply (c : Dev nD) (t : Fin cfg2.N) (x : S1024x1024.Idx) (k : S4096x1024.Idx)
    (hk0 : (k 0).val = t.val * 1024 + (x 0).val) (hk1 : (k 1).val = (x 1).val) :
    (iblk2 V c 0 t : Vec Ideal S1024x1024 .bf16) x = (V c main_v10 : S4096x1024.Idx → EReal) k := by
  obtain ⟨e0, e1, -⟩ := idx_facts2 t
  unfold iblk2
  rw [View.read_apply]
  show (V c main_v10 : S4096x1024.Idx → EReal) _ = _
  refine congrArg _ ?_
  funext a
  apply Fin.ext
  match a with
  | ⟨0, _⟩ => show win2_0.index t (0 : Fin 2) * 1024 + 1 * (x 0).val = (k 0).val; rw [e0, hk0]; omega
  | ⟨1, _⟩ => show win2_0.index t (1 : Fin 2) * 1024 + 1 * (x 1).val = (k 1).val; rw [e1, hk1]; omega

/-- The right factor's block at every point is its whole array. -/
theorem iblk2_1_apply (c : Dev nD) (t : Fin cfg2.N) (x : S1024x1024.Idx) (k : S1024x1024.Idx)
    (hk0 : (k 0).val = (x 0).val) (hk1 : (k 1).val = (x 1).val) :
    (iblk2 V c 1 t : Vec Ideal S1024x1024 .bf16) x = (V c main_v12 : S1024x1024.Idx → EReal) k := by
  obtain ⟨-, -, e2, e3, -⟩ := idx_facts2 t
  unfold iblk2
  rw [View.read_apply]
  show (V c main_v12 : S1024x1024.Idx → EReal) _ = _
  refine congrArg _ ?_
  funext a
  apply Fin.ext
  match a with
  | ⟨0, _⟩ => show win2_1.index t (0 : Fin 2) * 1024 + 1 * (x 0).val = (k 0).val; rw [e2, hk0]; omega
  | ⟨1, _⟩ => show win2_1.index t (1 : Fin 2) * 1024 + 1 * (x 1).val = (k 1).val; rw [e3, hk1]; omega

/-- The bias row's block at every point is its whole array. -/
theorem iblk2_2_apply (c : Dev nD) (t : Fin cfg2.N) (x : S1x1024.Idx) (k : S1x1024.Idx)
    (hk0 : (k 0).val = (x 0).val) (hk1 : (k 1).val = (x 1).val) :
    (iblk2 V c 2 t : Vec Ideal S1x1024 .f32) x = (V c main_v13 : S1x1024.Idx → EReal) k := by
  obtain ⟨-, -, -, -, e4, e5, -⟩ := idx_facts2 t
  unfold iblk2
  rw [View.read_apply]
  show (V c main_v13 : S1x1024.Idx → EReal) _ = _
  refine congrArg _ ?_
  funext a
  apply Fin.ext
  match a with
  | ⟨0, _⟩ => show win2_2.index t (0 : Fin 2) * 1 + 1 * (x 0).val = (k 0).val; rw [e4, hk0]; omega
  | ⟨1, _⟩ => show win2_2.index t (1 : Fin 2) * 1024 + 1 * (x 1).val = (k 1).val; rw [e5, hk1]; omega

/-- The body's stored value over blocks that are those rows and those whole arrays, at the block's element `j`, is
    the product plus bias at the array's index `i` that element sits at. -/
theorem pay2_blocks (t : ℕ) (a : S4096x1024.Idx → EReal) (b : S1024x1024.Idx → EReal) (β : S1x1024.Idx → EReal)
    (x0 : Vec Ideal S1024x1024 .bf16) (x1 : Vec Ideal S1024x1024 .bf16) (x2 : Vec Ideal S1x1024 .f32)
    (h0 : ∀ (x : S1024x1024.Idx) (k : S4096x1024.Idx), (k 0).val = t * 1024 + (x 0).val → (k 1).val = (x 1).val → x0 x = a k)
    (h1 : ∀ (x : S1024x1024.Idx) (k : S1024x1024.Idx), (k 0).val = (x 0).val → (k 1).val = (x 1).val → x1 x = b k)
    (h2 : ∀ (x : S1x1024.Idx) (k : S1x1024.Idx), (k 0).val = (x 0).val → (k 1).val = (x 1).val → x2 x = β k)
    (j : S1024x1024.Idx) (i : S4096x1024.Idx) (hi0 : (i 0).val = t * 1024 + (j 0).val) (hi1 : (i 1).val = (j 1).val) :
    k2_pay1 (F := Ideal) x0 x1 x2 j = prod2 a b β i := by
  obtain ⟨p, q, rfl⟩ : ∃ (p : Fin 1024) (q : Fin 1024), j = ix2 p q := ⟨j 0, j 1, eq_ix2 j⟩
  refine (pay2_apply x0 x1 x2 p q).trans ?_
  refine congrArg₂ (· + ·) (Finset.sum_congr rfl fun k _ => ?_) (h2 (ix2 0 q) (ix2 0 (i 1)) rfl hi1)
  rw [h0 (ix2 p k) (ix2 (i 0) k) hi0 rfl, h1 (ix2 k q) (ix2 k (i 1)) rfl hi1]

/-- What point `t` writes back is block `t` of the product plus bias. -/
theorem flushed2_eq (c : Dev nD) (t : Fin cfg2.N) :
    (dat2 (F := Ideal) V c).flushed 3 t = ((cfg2.win 3).blk t).view.read (Elt Ideal) (prod2 (V c main_v10) (V c main_v12) (V c main_v13)) := by
  show (cfg2.win 3).cut (grid2.coords t) ((dat2 (F := Ideal) V c).after 3 t) = _
  rw [after2_3]
  unfold out2_3
  rw [View.canon_unit_zero hz2]
  simp only [View.ld_unit_zero (S := S1024x1024) hz2, View.ld_unit_zero (S := S1x1024) hz2]
  obtain ⟨-, -, -, -, -, -, e6, e7⟩ := idx_facts2 t
  funext j
  rw [View.read_apply]
  show k2_pay1 (F := Ideal) (iblk2 V c 0 t) (iblk2 V c 1 t) (iblk2 V c 2 t) j = prod2 (V c main_v10) (V c main_v12) (V c main_v13) (((cfg2.win 3).blk t).view.emb j)
  refine pay2_blocks t.val (V c main_v10) (V c main_v12) (V c main_v13) (iblk2 V c 0 t) (iblk2 V c 1 t) (iblk2 V c 2 t)
    (iblk2_0_apply V c t) (iblk2_1_apply V c t) (iblk2_2_apply V c t) j _ ?_ ?_
  · show win2_3.index t (0 : Fin 2) * 1024 + 1 * (j 0).val = t.val * 1024 + (j 0).val; rw [e6]; omega
  · show win2_3.index t (1 : Fin 2) * 1024 + 1 * (j 1).val = (j 1).val; rw [e7]; omega

/-- An index of the result array is in point `t`'s block iff each coordinate is in the block's range on its axis. -/
theorem mem_blk2 (t : Fin cfg2.N) (i : S4096x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v14).slice (win2_3.rect t)).set ↔ _
  rw [View.set_slice_whole, Rect.mem_set_unit]
  exact Iff.rfl

/-- Every index of the result array is in the block of the point its row falls in: row `r` in point `r / 1024`. -/
theorem cover2 (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  have hN : cfg2.N = 4 := N_2
  obtain ⟨t, ht⟩ : ∃ t : Fin cfg2.N, t.val = (i 0).val / 1024 := ⟨⟨(i 0).val / 1024, by omega⟩, rfl⟩
  obtain ⟨-, -, -, -, -, -, e6, e7⟩ := idx_facts2 t
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; rw [e6, ht]; omega
  | ⟨1, _⟩ => show win2_3.index t (1 : Fin 2) * 1024 ≤ (i 1).val ∧ (i 1).val < win2_3.index t (1 : Fin 2) * 1024 + 1024; rw [e7]; omega

/-- The array region 2 leaves, at the ideal values: the matrix product of the left factor's array and the right
    factor's array as the region finds them, plus the bias row. -/
theorem arr2 (c : Dev nD) : (dat2 (F := Ideal) V c).arrAt 3 cfg2.N = prod2 (V c main_v10) (V c main_v12) (V c main_v13) :=
  (dat2 (F := Ideal) V c).arrAt_eq_of_cover 3 (prod2 (V c main_v10) (V c main_v12) (V c main_v13)) (fun t _ => flushed2_eq V c t) cover2

end Cert.KernelIdeal.HandValue

end
-- ==== Proof.Val.HostOut.lean ====
/-
  What the host operations between and after the kernels do, read at an index: each is a reshape between a
  (batch, row) pair of axes and one flat row axis — flat row r is (r / 2048, r % 2048) — so the array a kernel
  leaves is the next stage's input with its rows renumbered, and the program's result is the last kernel's array
  with its rows split back into batches.
-/
import proofs.«154070_j61375082660372_2_alg».proof.Proof.KI.Run
import proofs.«154070_j61375082660372_2_alg».proof.Proof.Val.Arr0
import proofs.«154070_j61375082660372_2_alg».proof.Proof.Val.Arr2
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-- The attention kernel's input at (b, t, e) is the first product at flat row 2048·b + t, column e. -/
theorem v8_at (b : Fin 2) (t e : Fin 2048) :
    (Hand.V3 m c main_v8 : S2x2048x2048.Idx → EReal) (ix3 b t e)
      = prod0 (Hand.V1 m c main_v6) (Hand.V1 m c main_v4) (ix2 ⟨b.val * 2048 + t.val, by omega⟩ e) := by
  have e8 : (Hand.V3 m c main_v8 : S2x2048x2048.Idx → EReal)
      = shapeCast S2x2048x2048 (Hand.W2 m c (Proc.devRef .tc main_v7) : S4096x2048.Idx → EReal) shapeCasts_S4096x2048_S2x2048x2048 := by
    dsimp only [Hand.V3, Hand.W3, hostOps1]; after_results; rfl
  have e7 : (Hand.W2 m c (Proc.devRef .tc main_v7) : S4096x2048.Idx → EReal) = prod0 (Hand.V1 m c main_v6) (Hand.V1 m c main_v4) :=
    (Hand.W2_arr m c 2).trans (arr0 (Hand.V1 m) c)
  rw [e8, e7]
  refine shapeCast_apply _ _ (ix3 b t e) (ix2 ⟨b.val * 2048 + t.val, by omega⟩ e) ?_
  rw [Shape.rowMajor_val_two, Shape.rowMajor_val_three]
  rfl

/-- The last kernel's left factor at flat row r is the attention kernel's array at (r / 2048, r % 2048). -/
theorem v10_at (r : Fin 4096) (j : Fin 1024) :
    (Hand.V5 m c main_v10 : S4096x1024.Idx → EReal) (ix2 r j)
      = ((dat1 (F := Ideal) (Hand.V3 m) c).arrAt 3 cfg1.N : S2x2048x1024.Idx → EReal)
          (ix3 ⟨r.val / 2048, by omega⟩ ⟨r.val % 2048, Nat.mod_lt _ (by decide)⟩ j) := by
  have e10 : (Hand.V5 m c main_v10 : S4096x1024.Idx → EReal)
      = shapeCast S4096x1024 (Hand.W4 m c (Proc.devRef .tc main_v9) : S2x2048x1024.Idx → EReal) shapeCasts_S2x2048x1024_S4096x1024 := by
    dsimp only [Hand.V5, Hand.W5, hostOps2]; after_results; rfl
  rw [e10, Hand.W4_out m c]
  refine shapeCast_apply _ _ (ix2 r j) (ix3 ⟨r.val / 2048, by omega⟩ ⟨r.val % 2048, Nat.mod_lt _ (by decide)⟩ j) ?_
  rw [Shape.rowMajor_val_three, Shape.rowMajor_val_two]
  show (r.val / 2048 * 2048 + r.val % 2048) * 1024 + j.val = r.val * 1024 + j.val
  omega

/-- The program's result at (b, t, e) is the last product plus bias at flat row 2048·b + t, column e. -/
theorem v15_at (b : Fin 2) (t : Fin 2048) (e : Fin 1024) :
    (Hand.W7 m c (Proc.devRef .tc main_v15) : S2x2048x1024.Idx → EReal) (ix3 b t e)
      = prod2 (Hand.V5 m c main_v10) (Hand.V5 m c main_v12) (Hand.V5 m c main_v13) (ix2 ⟨b.val * 2048 + t.val, by omega⟩ e) := by
  have e15 : (Hand.W7 m c (Proc.devRef .tc main_v15) : S2x2048x1024.Idx → EReal)
      = shapeCast S2x2048x1024 (Hand.W6 m c (Proc.devRef .tc main_v14) : S4096x1024.Idx → EReal) shapeCasts_S4096x1024_S2x2048x1024 := by
    dsimp only [Hand.W7, hostOps3]; after_results; rfl
  have e14 : (Hand.W6 m c (Proc.devRef .tc main_v14) : S4096x1024.Idx → EReal)
      = prod2 (Hand.V5 m c main_v10) (Hand.V5 m c main_v12) (Hand.V5 m c main_v13) :=
    (Hand.W6_arr m c 3).trans (arr2 (Hand.V5 m) c)
  rw [e15, e14]
  refine shapeCast_apply _ _ (ix3 b t e) (ix2 ⟨b.val * 2048 + t.val, by omega⟩ e) ?_
  rw [Shape.rowMajor_val_two, Shape.rowMajor_val_three]
  rfl

end Cert.KernelIdeal.HandValue

end
-- ==== Proof.Val.KSpec.lean ====
/-
  One attention head in the kernel's own arrangement of the score: with K the keys (also the queries) and V the values,

      kscore[t,s] = ((2·⟨K_t,K_s⟩ − ‖K_t‖²) − ‖K_s‖²) / 8,

  the row maximum started at −∞, the exponentials of the scores less that maximum, their row sum, the quotient, and
  the weighted sum of the value rows. Over real keys this is the score of the specification (minus the squared
  distance, scaled); over the extended reals the two groupings are kept apart, and this module only names the kernel's.
-/
import proofs.«154070_j61375082660372_2_alg».proof.Proof.Spec

noncomputable section

open scoped BigOperators

namespace Cert.KernelIdeal.HandValue

open Idealize.ShloMosaic Idealize.ShloMosaic.ValueIdx
open Cert.L2Attn (sqn cross two eighth negInf)

section Head

variable (K Vv : Fin 2048 → Fin 64 → EReal)

/-- Twice the inner product, less the query row's squared norm, less the key row's, scaled by 1/8. -/
def kscore (t s : Fin 2048) : EReal := ((two * cross K t s - sqn K t) - sqn K s) * eighth
/-- The row's largest score (the running maximum started at −∞). -/
def krowMax (t : Fin 2048) : EReal := (Finset.univ : Finset (Fin 2048)).fold max negInf (fun s => kscore K t s)
/-- The unnormalised weight and the row's normaliser. -/
def kexpo (t s : Fin 2048) : EReal := Ideal.exp (kscore K t s - krowMax K t)
def kdenom (t : Fin 2048) : EReal := ∑ s : Fin 2048, kexpo K t s
/-- The attention weight. -/
def kattn (t s : Fin 2048) : EReal := Ideal.div (kexpo K t s) (kdenom K t)
/-- One head's output row t, coordinate d. -/
def kHeadOut (t : Fin 2048) (d : Fin 64) : EReal := ∑ s : Fin 2048, kattn K t s * Vv s d

end Head

end Cert.KernelIdeal.HandValue

end
-- ==== Proof.Val.Ops1.lean ====
/-
  The vector operations of the attention body read at an index, at the ideal values: the column layout forms
  ([a] → [a,1], [a,1] → [a,b]), a row reduction (sum, maximum) of a matrix as the sum or the running maximum over the
  row's entries, and the body's two matrix products as sums over the contracted coordinate.
-/
import proofs.«154070_j61375082660372_2_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.HandValue

open Cert.KernelIdeal Cert.KernelIdeal.Gen
open Idealize.ShloMosaic Idealize.ShloMosaic.ValueIdx

section Layout
variable {α : Type}

/-- A vector cast to a one-column matrix reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast over `b` columns reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Reduce
variable {φ : FTy}

/-- The sum along the rows of a matrix, at row `r`: the sum of the row's entries. -/
theorem reduce_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext ax
  match ax with
  | ⟨0, _⟩ => exact Fin.ext rfl
  | ⟨1, _⟩ => exact Fin.ext rfl

/-- The maximum along the rows of a matrix, at row `r`: the running maximum of the row's entries from the
    accumulator's value. -/
theorem reduce_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  have e : (src ∘ h.lift (ix1 r)) = fun k : Fin b => src (ix2 r k) := by
    funext k
    refine congrArg src ?_
    funext ax
    match ax with
    | ⟨0, _⟩ => exact Fin.ext rfl
    | ⟨1, _⟩ => exact Fin.ext rfl
  rw [e]
  rfl

end Reduce

section Matmul

theorem qk_lhs0 (i : S256x2048.Idx) (q : dot_S256x64_S2048x64_S256x2048_1_1_0_0_n_n.contr.Idx) : (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem qk_lhs1 (i : S256x2048.Idx) (q : dot_S256x64_S2048x64_S256x2048_1_1_0_0_n_n.contr.Idx) : (dot_S256x64_S2048x64_S256x2048_1_1_0_0_n_n.lhsIdx i q 1).val = (q ⟨0, by decide⟩).val :=
  dot_S256x64_S2048x64_S256x2048_1_1_0_0_n_n.lhsIdx_val_of_single rfl i q
theorem qk_rhs0 (i : S256x2048.Idx) (q : dot_S256x64_S2048x64_S256x2048_1_1_0_0_n_n.contr.Idx) : (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem qk_rhs1 (i : S256x2048.Idx) (q : dot_S256x64_S2048x64_S256x2048_1_1_0_0_n_n.contr.Idx) : (dot_S256x64_S2048x64_S256x2048_1_1_0_0_n_n.rhsIdx i q 1).val = (q ⟨0, by decide⟩).val :=
  dot_S256x64_S2048x64_S256x2048_1_1_0_0_n_n.rhsIdx_val_of_single rfl i q

/-- The query–key product: entry `(r, s)` is the inner product of query row `r` and key row `s`. -/
theorem matmul_qk_apply (lhs : FVec Ideal S256x64 .bf16) (rhs : FVec Ideal S2048x64 .bf16) (r : Fin 256) (s : Fin 2048) :
    matmul (F := Ideal) dot_S256x64_S2048x64_S256x2048_1_1_0_0_n_n none lhs rhs (constant (F := Ideal) S256x2048 .f32 0x00000000#32) (ix2 r s)
      = ∑ k : Fin 64, lhs (ix2 r k) * rhs (ix2 s k) := by
  simp only [matmul]
  rw [Ideal.matmul_constant_zero_apply, ← Equiv.sum_comp (contrEquiv1 dot_S256x64_S2048x64_S256x2048_1_1_0_0_n_n 64 rfl rfl).symm]
  refine Finset.sum_congr rfl fun k _ => ?_
  have hk := contrEquiv1_symm_val dot_S256x64_S2048x64_S256x2048_1_1_0_0_n_n 64 rfl rfl k
  have el : dot_S256x64_S2048x64_S256x2048_1_1_0_0_n_n.lhsIdx (ix2 r s) ((contrEquiv1 dot_S256x64_S2048x64_S256x2048_1_1_0_0_n_n 64 rfl rfl).symm k) = ix2 r k :=
    funext fun a => Fin.ext (by
      match a with
      | ⟨0, _⟩ => exact qk_lhs0 _ _
      | ⟨1, _⟩ => exact (qk_lhs1 _ _).trans hk)
  have er : dot_S256x64_S2048x64_S256x2048_1_1_0_0_n_n.rhsIdx (ix2 r s) ((contrEquiv1 dot_S256x64_S2048x64_S256x2048_1_1_0_0_n_n 64 rfl rfl).symm k) = ix2 s k :=
    funext fun a => Fin.ext (by
      match a with
      | ⟨0, _⟩ => exact qk_rhs0 _ _
      | ⟨1, _⟩ => exact (qk_rhs1 _ _).trans hk)
  rw [el, er]

theorem av_lhs0 (i : S256x64.Idx) (q : dot_S256x2048_S2048x64_S256x64_1_0_0_1_n_n.contr.Idx) : (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem av_lhs1 (i : S256x64.Idx) (q : dot_S256x2048_S2048x64_S256x64_1_0_0_1_n_n.contr.Idx) : (dot_S256x2048_S2048x64_S256x64_1_0_0_1_n_n.lhsIdx i q 1).val = (q ⟨0, by decide⟩).val :=
  dot_S256x2048_S2048x64_S256x64_1_0_0_1_n_n.lhsIdx_val_of_single rfl i q
theorem av_rhs0 (i : S256x64.Idx) (q : dot_S256x2048_S2048x64_S256x64_1_0_0_1_n_n.contr.Idx) : (dot_S256x2048_S2048x64_S256x64_1_0_0_1_n_n.rhsIdx i q 0).val = (q ⟨0, by decide⟩).val :=
  dot_S256x2048_S2048x64_S256x64_1_0_0_1_n_n.rhsIdx_val_of_single rfl i q
theorem av_rhs1 (i : S256x64.Idx) (q : dot_S256x2048_S2048x64_S256x64_1_0_0_1_n_n.contr.Idx) : (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The weights–values product: entry `(r, d)` is the sum over the key rows `s` of weight `(r, s)` times value `(s, d)`. -/
theorem matmul_av_apply (lhs : FVec Ideal S256x2048 .bf16) (rhs : FVec Ideal S2048x64 .bf16) (r : Fin 256) (d : Fin 64) :
    matmul (F := Ideal) dot_S256x2048_S2048x64_S256x64_1_0_0_1_n_n none lhs rhs (constant (F := Ideal) S256x64 .f32 0x00000000#32) (ix2 r d)
      = ∑ s : Fin 2048, lhs (ix2 r s) * rhs (ix2 s d) := by
  simp only [matmul]
  rw [Ideal.matmul_constant_zero_apply, ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 r d) ((contrEquiv1 dot_S256x2048_S2048x64_S256x64_1_0_0_1_n_n 2048 rfl rfl).symm k) = ix2 r k :=
    funext fun a => Fin.ext (by
      match a with
      | ⟨0, _⟩ => exact av_lhs0 _ _
      | ⟨1, _⟩ => exact (av_lhs1 _ _).trans hk)
  have er : dot_S256x2048_S2048x64_S256x64_1_0_0_1_n_n.rhsIdx (ix2 r d) ((contrEquiv1 dot_S256x2048_S2048x64_S256x64_1_0_0_1_n_n 2048 rfl rfl).symm k) = ix2 k d :=
    funext fun a => Fin.ext (by
      match a with
      | ⟨0, _⟩ => exact (av_rhs0 _ _).trans hk
      | ⟨1, _⟩ => exact av_rhs1 _ _)
  rw [el, er]

end Matmul

end Cert.KernelIdeal.HandValue

end
-- ==== Proof.Val.Head1.lean ====
/-
  The attention body's arithmetic, read entry by entry at the ideal values. From the query tile `q` (256 × 64), the
  keys `k` and the values `v` (2048 × 64 each) the body forms the scores
      ((2·⟨q_r,k_s⟩ − ‖q_r‖²) − ‖k_s‖²) / 8,
  each row's maximum, the exponentials of the scores less that maximum, their row sums, the quotients, and the product
  of the quotients with the values. The two halves of the body (columns 0–63 and 64–127 of the blocks) are this same
  function of different column slices.
-/
import proofs.«154070_j61375082660372_2_alg».proof.Proof.Val.KSpec
import proofs.«154070_j61375082660372_2_alg».proof.Proof.Val.Ops1
import proofs.«154070_j61375082660372_2_alg».proof.Proof.Gen.KernelIdeal.Skeleton

noncomputable section

open scoped BigOperators

namespace Cert.KernelIdeal.HandValue

open Cert.KernelIdeal Cert.KernelIdeal.Gen
open Idealize.ShloMosaic Idealize.ShloMosaic.ValueIdx
open Cert.L2Attn (two eighth negInf)

/-! ## One tile's head, as a function of the tile's rows -/

section Tile
variable (Q : Fin 256 → Fin 64 → EReal) (K Vv : Fin 2048 → Fin 64 → EReal)

/-- The score of query row `r` against key row `s`, in the body's grouping. -/
def tscore (r : Fin 256) (s : Fin 2048) : EReal :=
  ((two * (∑ d : Fin 64, Q r d * K s d) - ∑ d : Fin 64, Q r d * Q r d) - ∑ d : Fin 64, K s d * K s d) * eighth
def trowMax (r : Fin 256) : EReal := (Finset.univ : Finset (Fin 2048)).fold max negInf (fun s => tscore Q K r s)
def texpo (r : Fin 256) (s : Fin 2048) : EReal := Ideal.exp (tscore Q K r s - trowMax Q K r)
def tdenom (r : Fin 256) : EReal := ∑ s : Fin 2048, texpo Q K r s
def tattn (r : Fin 256) (s : Fin 2048) : EReal := Ideal.div (texpo Q K r s) (tdenom Q K r)
def tHeadOut (r : Fin 256) (d : Fin 64) : EReal := ∑ s : Fin 2048, tattn Q K r s * Vv s d

end Tile

/-- A tile whose query rows are rows `f r` of the keys computes those rows of the whole head. -/
theorem tHeadOut_eq_kHeadOut (K Vv : Fin 2048 → Fin 64 → EReal) (f : Fin 256 → Fin 2048) (r : Fin 256) (d : Fin 64) :
    tHeadOut (fun r d => K (f r) d) K Vv r d = kHeadOut K Vv (f r) d := rfl

/-! ## The body's stages -/

section Stages

/-- A matrix's rows' squared norms, as a column. -/
def sqCol {a b : ℕ} (v : FVec Ideal ⟨2, ![a, b]⟩ .bf16) (hlt : FTy.bits .bf16 < FTy.bits .f32)
    (h1 : (⟨2, ![a, b]⟩ : Shape).Reduces [1] ⟨1, ![a]⟩) (h2 : (⟨1, ![a]⟩ : Shape).ShapeCasts ⟨2, ![a, 1]⟩) : FVec Ideal ⟨2, ![a, 1]⟩ .f32 :=
  shapeCast ⟨2, ![a, 1]⟩ (multiReduction (F := Ideal) .add [1] ⟨1, ![a]⟩ (mulf (extf .f32 v hlt) (extf .f32 v hlt)) 0x00000000#32 h1 (.inl rfl) rfl) h2

theorem sqCol_apply {a b : ℕ} (v : FVec Ideal ⟨2, ![a, b]⟩ .bf16) (hlt) (h1) (h2) (r : Fin a) (u : Fin 1) :
    sqCol v hlt h1 h2 (ix2 r u) = ∑ k : Fin b, v (ix2 r k) * v (ix2 r k) := by
  unfold sqCol
  refine (shapeCast_a_a1_apply _ h2 r u).trans ?_
  exact reduce_add_row _ _ h1 _ _ r

/-- A matrix's row maxima from −∞, as a column. -/
def maxCol {a b : ℕ} (v : FVec Ideal ⟨2, ![a, b]⟩ .f32)
    (h1 : (⟨2, ![a, b]⟩ : Shape).Reduces [1] ⟨1, ![a]⟩) (h2 : (⟨1, ![a]⟩ : Shape).ShapeCasts ⟨2, ![a, 1]⟩) : FVec Ideal ⟨2, ![a, 1]⟩ .f32 :=
  shapeCast ⟨2, ![a, 1]⟩ (multiReduction (F := Ideal) .maximumf [1] ⟨1, ![a]⟩ v 0xFF800000#32 h1 (.inl rfl) rfl) h2

theorem maxCol_apply {a b : ℕ} (v : FVec Ideal ⟨2, ![a, b]⟩ .f32) (h1) (h2) (r : Fin a) (u : Fin 1) :
    maxCol v h1 h2 (ix2 r u) = (Finset.univ : Finset (Fin b)).fold max negInf (fun k => v (ix2 r k)) := by
  unfold maxCol
  refine (shapeCast_a_a1_apply _ h2 r u).trans ?_
  exact reduce_max_row _ _ h1 _ _ r

/-- A matrix's row sums, as a column. -/
def sumCol {a b : ℕ} (v : FVec Ideal ⟨2, ![a, b]⟩ .f32)
    (h1 : (⟨2, ![a, b]⟩ : Shape).Reduces [1] ⟨1, ![a]⟩) (h2 : (⟨1, ![a]⟩ : Shape).ShapeCasts ⟨2, ![a, 1]⟩) : FVec Ideal ⟨2, ![a, 1]⟩ .f32 :=
  shapeCast ⟨2, ![a, 1]⟩ (multiReduction (F := Ideal) .add [1] ⟨1, ![a]⟩ v 0x00000000#32 h1 (.inl rfl) rfl) h2

theorem sumCol_apply {a b : ℕ} (v : FVec Ideal ⟨2, ![a, b]⟩ .f32) (h1) (h2) (r : Fin a) (u : Fin 1) :
    sumCol v h1 h2 (ix2 r u) = ∑ k : Fin b, v (ix2 r k) := by
  unfold sumCol
  refine (shapeCast_a_a1_apply _ h2 r u).trans ?_
  exact reduce_add_row _ _ h1 _ _ r

/-- The scaled scores of the tile's queries against all keys. -/
def scoreV (v6 : FVec Ideal S256x64 .bf16) (v7 : FVec Ideal S2048x64 .bf16) : FVec Ideal S256x2048 .f32 :=
  mulf
    (subf
      (subf
        (mulf (broadcast S256x2048 (Scalar.ofBits (F := Ideal) .f32 0x40000000#32))
          (matmul (F := Ideal) dot_S256x64_S2048x64_S256x2048_1_1_0_0_n_n none v6 v7 (constant (F := Ideal) S256x2048 .f32 0x00000000#32)))
        (broadcastTo S256x2048 (sqCol v6 bitsLt_bf16_f32 reduces_S256x64_S256 shapeCasts_S256_S256x1) broadcasts_S256x1_S256x2048))
      (broadcastTo S256x2048
        (transpose S1x2048 [1, 0] (sqCol v7 bitsLt_bf16_f32 reduces_S2048x64_S2048 shapeCasts_S2048_S2048x1) transposes_S2048x1_p1_0_S1x2048)
        broadcasts_S1x2048_S256x2048))
    (broadcast S256x2048 (Scalar.ofBits (F := Ideal) .f32 0x3E000000#32))

theorem scoreV_apply (v6 : FVec Ideal S256x64 .bf16) (v7 : FVec Ideal S2048x64 .bf16) (r : Fin 256) (s : Fin 2048) :
    scoreV v6 v7 (ix2 r s) = tscore (fun r d => v6 (ix2 r d)) (fun s d => v7 (ix2 s d)) r s := by
  unfold scoreV tscore
  rw [mulf_apply, subf_apply, subf_apply, mulf_apply, broadcast_apply, broadcast_apply, matmul_qk_apply,
    broadcastTo_a1_ab_apply, sqCol_apply, broadcastTo_1b_ab_apply, transpose_ix2_apply, sqCol_apply]
  rfl

/-- The exponentials of the scores less their row's maximum. -/
def expV (v26 : FVec Ideal S256x2048 .f32) : FVec Ideal S256x2048 .f32 :=
  exp (subf v26 (broadcastTo S256x2048 (maxCol v26 reduces_S256x2048_S256 shapeCasts_S256_S256x1) broadcasts_S256x1_S256x2048))

theorem expV_apply (v26 : FVec Ideal S256x2048 .f32) (r : Fin 256) (s : Fin 2048) :
    expV v26 (ix2 r s) = Ideal.exp (v26 (ix2 r s) - (Finset.univ : Finset (Fin 2048)).fold max negInf (fun k => v26 (ix2 r k))) := by
  unfold expV
  show Ideal.exp (subf v26 _ (ix2 r s)) = _
  rw [subf_apply, broadcastTo_a1_ab_apply, maxCol_apply]

/-- The exponentials over their row sums. -/
def attnV (v31 : FVec Ideal S256x2048 .f32) : FVec Ideal S256x2048 .bf16 :=
  truncf .bf16 (divf v31 (broadcastTo S256x2048 (sumCol v31 reduces_S256x2048_S256 shapeCasts_S256_S256x1) broadcasts_S256x1_S256x2048)) bitsLt_bf16_f32

theorem attnV_apply (v31 : FVec Ideal S256x2048 .f32) (r : Fin 256) (s : Fin 2048) :
    attnV v31 (ix2 r s) = Ideal.div (v31 (ix2 r s)) (∑ k : Fin 2048, v31 (ix2 r k)) := by
  unfold attnV
  rw [truncf_apply, divf_apply, broadcastTo_a1_ab_apply, sumCol_apply]

/-- The whole head of one tile. -/
def headV (v6 : FVec Ideal S256x64 .bf16) (v7 v8 : FVec Ideal S2048x64 .bf16) : FVec Ideal S256x64 .bf16 :=
  truncf .bf16
    (matmul (F := Ideal) dot_S256x2048_S2048x64_S256x64_1_0_0_1_n_n none (attnV (expV (scoreV v6 v7))) v8 (constant (F := Ideal) S256x64 .f32 0x00000000#32))
    bitsLt_bf16_f32

theorem headV_apply (v6 : FVec Ideal S256x64 .bf16) (v7 v8 : FVec Ideal S2048x64 .bf16) (r : Fin 256) (d : Fin 64) :
    headV v6 v7 v8 (ix2 r d) = tHeadOut (fun r d => v6 (ix2 r d)) (fun s d => v7 (ix2 s d)) (fun s d => v8 (ix2 s d)) r d := by
  unfold headV
  rw [truncf_apply, matmul_av_apply]
  unfold tHeadOut tattn tdenom texpo trowMax
  refine Finset.sum_congr rfl fun s _ => ?_
  rw [attnV_apply]
  simp only [expV_apply, scoreV_apply]

end Stages

/-! ## The two stored values are the head of their column slices -/

theorem pay6_eq (v0 : Vec Ideal S1x256x128 .bf16) (v2 v4 : Vec Ideal S1x2048x128 .bf16) :
    k1_pay6 (F := Ideal) v0 v2 v4
      = headV (extractStridedSlice S256x64 ![0, 0] (k1_pay3 (F := Ideal) v0) slices_S256x128_o0_0_S256x64)
          (extractStridedSlice S2048x64 ![0, 0] (k1_pay4 (F := Ideal) v2) slices_S2048x128_o0_0_S2048x64)
          (extractStridedSlice S2048x64 ![0, 0] (k1_pay5 (F := Ideal) v4) slices_S2048x128_o0_0_S2048x64) := rfl

theorem pay2_eq (v1 : FVec Ideal S256x128 .bf16) (v3 v5 : FVec Ideal S2048x128 .bf16) :
    k1_pay2 (F := Ideal) v1 v3 v5
      = shapeCast S1x256x64
          (headV (extractStridedSlice S256x64 ![0, 64] v1 slices_S256x128_o0_64_S256x64)
            (extractStridedSlice S2048x64 ![0, 64] v3 slices_S2048x128_o0_64_S2048x64)
            (extractStridedSlice S2048x64 ![0, 64] v5 slices_S2048x128_o0_64_S2048x64))
          shapeCasts_S256x64_S1x256x64 := rfl

end Cert.KernelIdeal.HandValue

end
-- ==== Proof.Val.Arr1.lean ====
/-
  The attention region's output array as one function of the projected array it reads.

  Point (b, p, q) of the 2×8×8 grid reads rows 256·q … 256·q + 255 of batch b as queries, all 2048 rows as keys and as
  values, each in a 128-column strip (columns 128·p … for queries and keys, 128·(p + 8) … for values), and writes the
  256 × 128 block (b, q, p) of the output. Each 64-column half of a strip is one head, so output entry (b, t, j) is head
  j / 64 of batch b at row t, coordinate j % 64, with the head's keys in columns 64·(j / 64) … of the array and its values
  1024 columns further on.
-/
import proofs.«154070_j61375082660372_2_alg».proof.Proof.KI.Reg1
import proofs.«154070_j61375082660372_2_alg».proof.Proof.Val.Head1
import Idealize.ShloMosaic.Lib.Pipeline.Value

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## One block -/

theorem hz3 : (![0, 0, 0] : Fin 3 → Nat) = fun _ => 0 := funext fun a => by fin_cases a <;> rfl

/-- The head whose columns start at `o` in the three input blocks, at query row `r` and coordinate `d`. -/
def tileOut (x0 : Vec Ideal S1x256x128 .bf16) (x1 x2 : Vec Ideal S1x2048x128 .bf16) (o : ℕ) (ho : o + 64 ≤ 128)
    (r : Fin 256) (d : Fin 64) : EReal :=
  tHeadOut (fun r d => x0 (ix3 (0 : Fin 1) r (⟨o + d.val, by have := d.isLt; omega⟩ : Fin 128)))
    (fun s d => x1 (ix3 (0 : Fin 1) s (⟨o + d.val, by have := d.isLt; omega⟩ : Fin 128)))
    (fun s d => x2 (ix3 (0 : Fin 1) s (⟨o + d.val, by have := d.isLt; omega⟩ : Fin 128))) r d

theorem tileOut_congr (x0 : Vec Ideal S1x256x128 .bf16) (x1 x2 : Vec Ideal S1x2048x128 .bf16) {o o' : ℕ} (ho : o + 64 ≤ 128)
    (ho' : o' + 64 ≤ 128) {r r' : Fin 256} {d d' : Fin 64} (eo : o = o') (er : r = r') (ed : d = d') :
    tileOut x0 x1 x2 o ho r d = tileOut x0 x1 x2 o' ho' r' d' := by
  subst eo; subst er; subst ed; rfl

/-- What the first store writes: the head of columns 0–63. -/
theorem lo_piece (x0 : Vec Ideal S1x256x128 .bf16) (x1 x2 : Vec Ideal S1x2048x128 .bf16) (u : Fin 1) (r : Fin 256) (d : Fin 64) :
    k1_pay1 (F := Ideal) (k1_pay6 (View.ld x0 r1_q) (View.ld x1 r1_kv) (View.ld x2 r1_kv)) (ix3 u r d)
      = tileOut x0 x1 x2 0 (by omega) r d := by
  rw [View.ld_unit_zero (S := S1x256x128) hz3, View.ld_unit_zero (S := S1x2048x128) hz3, View.ld_unit_zero (S := S1x2048x128) hz3]
  unfold k1_pay1
  rw [shapeCast_ab_1ab_apply, pay6_eq, headV_apply]
  simp only [slice2_axis1_eq, k1_pay3, k1_pay4, k1_pay5, shapeCast_1ab_ab_apply]
  rfl

/-- What the second store writes: the head of columns 64–127. -/
theorem hi_piece (x0 : Vec Ideal S1x256x128 .bf16) (x1 x2 : Vec Ideal S1x2048x128 .bf16) (u : Fin 1) (r : Fin 256) (d : Fin 64) :
    k1_pay2 (F := Ideal) (k1_pay3 (View.ld x0 r1_q)) (k1_pay4 (View.ld x1 r1_kv)) (k1_pay5 (View.ld x2 r1_kv)) (ix3 u r d)
      = tileOut x0 x1 x2 64 (by omega) r d := by
  rw [View.ld_unit_zero (S := S1x256x128) hz3, View.ld_unit_zero (S := S1x2048x128) hz3, View.ld_unit_zero (S := S1x2048x128) hz3]
  rw [pay2_eq, shapeCast_ab_1ab_apply, headV_apply]
  simp only [slice2_axis1_eq, k1_pay3, k1_pay4, k1_pay5, shapeCast_1ab_ab_apply]
  rfl

/-- The output block as one function of its index: entry (·, r, j) is the head of the strip's half j / 64. -/
def bG (x0 : Vec Ideal S1x256x128 .bf16) (x1 x2 : Vec Ideal S1x2048x128 .bf16) : S1x256x128.Idx → EReal := fun y =>
  tileOut x0 x1 x2 ((y 2).val / 64 * 64) (by have : (y 2).val < 128 := (y 2).isLt; omega)
    ⟨(y 1).val, (y 1).isLt⟩ ⟨(y 2).val % 64, Nat.mod_lt _ (by decide)⟩

theorem out1_3_eq (x0 : Vec Ideal S1x256x128 .bf16) (x1 x2 : Vec Ideal S1x2048x128 .bf16) :
    out1_3 (F := Ideal) x0 x1 x2 = bG x0 x1 x2 := by
  funext y
  unfold out1_3
  refine View.canon_apply_of_pieces (Val := Elt Ideal) (bG x0 x1 x2) _ ?_ y (cover1_3 _ _ y)
  intro p hp
  simp only [List.mem_cons, List.mem_singleton, List.not_mem_nil, or_false] at hp
  rcases hp with rfl | rfl
  · intro x
    obtain ⟨u, r, d, rfl⟩ : ∃ (u : Fin 1) (r : Fin 256) (d : Fin 64), x = ix3 u r d := ⟨x 0, x 1, x 2, eq_ix3 x⟩
    refine (hi_piece x0 x1 x2 u r d).trans ?_
    unfold bG
    have e1 : ((r1_hi.emb (ix3 u r d)) 1).val = r.val := by
      rw [Rect.emb_apply]; show 0 + 1 * r.val = r.val; omega
    have e2 : ((r1_hi.emb (ix3 u r d)) 2).val = 64 + d.val := by
      rw [Rect.emb_apply]; show 64 + 1 * d.val = 64 + d.val; omega
    have hd := d.isLt
    refine tileOut_congr x0 x1 x2 _ _ ?_ (Fin.ext ?_) (Fin.ext ?_)
    · rw [e2]; omega
    · exact e1.symm
    · show d.val = ((r1_hi.emb (ix3 u r d)) 2).val % 64; rw [e2]; omega
  · intro x
    obtain ⟨u, r, d, rfl⟩ : ∃ (u : Fin 1) (r : Fin 256) (d : Fin 64), x = ix3 u r d := ⟨x 0, x 1, x 2, eq_ix3 x⟩
    refine (lo_piece x0 x1 x2 u r d).trans ?_
    unfold bG
    have e1 : ((r1_lo.emb (ix3 u r d)) 1).val = r.val := by
      rw [Rect.emb_apply]; show 0 + 1 * r.val = r.val; omega
    have e2 : ((r1_lo.emb (ix3 u r d)) 2).val = d.val := by
      rw [Rect.emb_apply]; show 0 + 1 * d.val = d.val; omega
    have hd := d.isLt
    refine tileOut_congr x0 x1 x2 _ _ ?_ (Fin.ext ?_) (Fin.ext ?_)
    · rw [e2]; omega
    · exact e1.symm
    · show d.val = ((r1_lo.emb (ix3 u r d)) 2).val % 64; rw [e2]; omega

/-! ## The blocks in the array -/

/-- The windows' index maps over the grid: point `t` = (b, p, q) has output block (b, q, p); the query block is the same
    block of the input array, the key block is (b, 0, p) and the value block (b, 0, p + 8). -/
theorem idx_facts1 : ∀ t : Fin cfg1.N,
    win1_3.index t (0 : Fin 3) = t.val / 64 ∧ win1_3.index t (1 : Fin 3) = t.val % 8 ∧ win1_3.index t (2 : Fin 3) = t.val / 8 % 8
    ∧ win1_0.index t (0 : Fin 3) = t.val / 64 ∧ win1_0.index t (1 : Fin 3) = t.val % 8 ∧ win1_0.index t (2 : Fin 3) = t.val / 8 % 8
    ∧ win1_1.index t (0 : Fin 3) = t.val / 64 ∧ win1_1.index t (1 : Fin 3) = 0 ∧ win1_1.index t (2 : Fin 3) = t.val / 8 % 8
    ∧ win1_2.index t (0 : Fin 3) = t.val / 64 ∧ win1_2.index t (1 : Fin 3) = 0 ∧ win1_2.index t (2 : Fin 3) = t.val / 8 % 8 + 8 :=
  (by decide +kernel : ∀ t : Fin grid1.N, _)

/-- The whole output array as a function of the input array `A`: entry (b, t, j) is head j / 64 of batch b — keys in
    columns 64·(j / 64) … of `A`, values 1024 columns further — at row t, coordinate j % 64. -/
abbrev attn1 (A : S2x2048x2048.Idx → EReal) : S2x2048x1024.Idx → EReal := fun i =>
  kHeadOut
    (fun t d => A (ix3 (⟨(i 0).val, (i 0).isLt⟩ : Fin 2) t
      (⟨(i 2).val / 64 * 64 + d.val, by have : (i 2).val < 1024 := (i 2).isLt; have := d.isLt; omega⟩ : Fin 2048)))
    (fun s d => A (ix3 (⟨(i 0).val, (i 0).isLt⟩ : Fin 2) s
      (⟨1024 + (i 2).val / 64 * 64 + d.val, by have : (i 2).val < 1024 := (i 2).isLt; have := d.isLt; omega⟩ : Fin 2048)))
    ⟨(i 1).val, (i 1).isLt⟩ ⟨(i 2).val % 64, Nat.mod_lt _ (by decide)⟩

/-- `attn1` at an entry given by its coordinates. -/
theorem attn1_apply (A : S2x2048x2048.Idx → EReal) (b : Fin 2) (t : Fin 2048) (j : Fin 1024) :
    attn1 A (ix3 b t j)
      = kHeadOut
          (fun t' d => A (ix3 b t' (⟨j.val / 64 * 64 + d.val, by have := j.isLt; have := d.isLt; omega⟩ : Fin 2048)))
          (fun s d => A (ix3 b s (⟨1024 + j.val / 64 * 64 + d.val, by have := j.isLt; have := d.isLt; omega⟩ : Fin 2048)))
          t ⟨j.val % 64, Nat.mod_lt _ (by decide)⟩ := rfl

/-- A tile whose query rows are rows `f r` of the keys, whose keys and values are those of a head, computes rows `f r`
    of that head. -/
theorem tile_to_head (Q : Fin 256 → Fin 64 → EReal) (K Vv K' Vv' : Fin 2048 → Fin 64 → EReal) (f : Fin 256 → Fin 2048)
    (r : Fin 256) (d : Fin 64) (R : Fin 2048) (D : Fin 64)
    (hQ : ∀ r d, Q r d = K' (f r) d) (hK : ∀ s d, K s d = K' s d) (hV : ∀ s d, Vv s d = Vv' s d) (hR : f r = R) (hD : d = D) :
    tHeadOut Q K Vv r d = kHeadOut K' Vv' R D := by
  obtain rfl : Q = fun r d => K' (f r) d := funext fun r => funext fun d => hQ r d
  obtain rfl : K = K' := funext fun s => funext fun d => hK s d
  obtain rfl : Vv = Vv' := funext fun s => funext fun d => hV s d
  subst hR; subst hD
  rfl

section Array
variable (V : (c : Dev nD) → (b : Ref sig .tc) → Buf (Elt Ideal) ((c : Thread nD τ).loc b))

/-- What point `t` writes back is block `t` of `attn1` of the input array as the region finds it. -/
theorem flushed1_eq (c : Dev nD) (t : Fin cfg1.N) :
    (dat1 (F := Ideal) V c).flushed 3 t = ((cfg1.win 3).blk t).view.read (Elt Ideal) (attn1 (V c main_v8)) := by
  show (cfg1.win 3).cut (grid1.coords t) ((dat1 (F := Ideal) V c).after 3 t) = _
  rw [after1_3, out1_3_eq]
  obtain ⟨a0, a1, a2, b0, b1, b2, c0, c1, c2, d0, d1, d2⟩ := idx_facts1 t
  have hN : cfg1.N = 128 := N_1
  have ht := t.isLt
  funext y
  have hy0 : (y 0).val < 1 := (y 0).isLt
  have hy1 : (y 1).val < 256 := (y 1).isLt
  have hy2 : (y 2).val < 128 := (y 2).isLt
  show bG (iblk1 V c 0 t) (iblk1 V c 1 t) (iblk1 V c 2 t) y = attn1 (V c main_v8) (((cfg1.win 3).blk t).view.emb y)
  unfold bG tileOut attn1
  refine tile_to_head _ _ _ _ _ (fun r => ⟨win1_3.index t (1 : Fin 3) * 256 + r.val, by have := r.isLt; omega⟩) _ _ _ _ ?_ ?_ ?_ ?_ ?_
  · intro r d
    have hr := r.isLt; have hd := d.isLt
    show V c main_v8 (((cfg1.win 0).blk t).view.emb _) = V c main_v8 _
    refine congrArg (V c main_v8) ?_
    funext a; apply Fin.ext
    match a with
    | ⟨0, _⟩ => show win1_0.index t (0 : Fin 3) * 1 + 1 * 0 = win1_3.index t (0 : Fin 3) * 1 + 1 * (y 0).val; omega
    | ⟨1, _⟩ => show win1_0.index t (1 : Fin 3) * 256 + 1 * r.val = win1_3.index t (1 : Fin 3) * 256 + r.val; omega
    | ⟨2, _⟩ => show win1_0.index t (2 : Fin 3) * 128 + 1 * ((y 2).val / 64 * 64 + d.val) = (win1_3.index t (2 : Fin 3) * 128 + 1 * (y 2).val) / 64 * 64 + d.val; omega
  · intro s d
    have hs := s.isLt; have hd := d.isLt
    show V c main_v8 (((cfg1.win 1).blk t).view.emb _) = V c main_v8 _
    refine congrArg (V c main_v8) ?_
    funext a; apply Fin.ext
    match a with
    | ⟨0, _⟩ => show win1_1.index t (0 : Fin 3) * 1 + 1 * 0 = win1_3.index t (0 : Fin 3) * 1 + 1 * (y 0).val; omega
    | ⟨1, _⟩ => show win1_1.index t (1 : Fin 3) * 2048 + 1 * s.val = s.val; omega
    | ⟨2, _⟩ => show win1_1.index t (2 : Fin 3) * 128 + 1 * ((y 2).val / 64 * 64 + d.val) = (win1_3.index t (2 : Fin 3) * 128 + 1 * (y 2).val) / 64 * 64 + d.val; omega
  · intro s d
    have hs := s.isLt; have hd := d.isLt
    show V c main_v8 (((cfg1.win 2).blk t).view.emb _) = V c main_v8 _
    refine congrArg (V c main_v8) ?_
    funext a; apply Fin.ext
    match a with
    | ⟨0, _⟩ => show win1_2.index t (0 : Fin 3) * 1 + 1 * 0 = win1_3.index t (0 : Fin 3) * 1 + 1 * (y 0).val; omega
    | ⟨1, _⟩ => show win1_2.index t (1 : Fin 3) * 2048 + 1 * s.val = s.val; omega
    | ⟨2, _⟩ => show win1_2.index t (2 : Fin 3) * 128 + 1 * ((y 2).val / 64 * 64 + d.val) = 1024 + (win1_3.index t (2 : Fin 3) * 128 + 1 * (y 2).val) / 64 * 64 + d.val; omega
  · apply Fin.ext
    show win1_3.index t (1 : Fin 3) * 256 + (y 1).val = win1_3.index t (1 : Fin 3) * 256 + 1 * (y 1).val
    omega
  · apply Fin.ext
    show (y 2).val % 64 = (win1_3.index t (2 : Fin 3) * 128 + 1 * (y 2).val) % 64
    omega

/-- An index of the output array is in point `t`'s block iff each coordinate is in the block's range on its axis. -/
theorem mem_blk1 (t : Fin cfg1.N) (i : S2x2048x1024.Idx) :
    i ∈ ((cfg1.win 3).blk t).view.set ↔ ∀ a : Fin 3, win1_3.index t a * S1x256x128.size a ≤ (i a).val ∧ (i a).val < win1_3.index t a * S1x256x128.size a + S1x256x128.size a := by
  show i ∈ ((View.whole main_v9).slice (win1_3.rect t)).set ↔ _
  rw [View.set_slice_whole, Rect.mem_set_unit]
  exact Iff.rfl

/-- Every entry (b, t, j) of the output array is in the block of point 64·b + 8·(j / 128) + t / 256. -/
theorem cover1 (i : S2x2048x1024.Idx) : ∃ t : Fin cfg1.N, (cfg1.win 3).flush t = true ∧ i ∈ ((cfg1.win 3).blk t).view.set := by
  have hN : cfg1.N = 128 := N_1
  have hi0 : (i 0).val < 2 := (i 0).isLt
  have hi1 : (i 1).val < 2048 := (i 1).isLt
  have hi2 : (i 2).val < 1024 := (i 2).isLt
  refine ⟨⟨(i 0).val * 64 + (i 2).val / 128 * 8 + (i 1).val / 256, by omega⟩, flush1_3 _, ?_⟩
  obtain ⟨a0, a1, a2, -⟩ := idx_facts1 ⟨(i 0).val * 64 + (i 2).val / 128 * 8 + (i 1).val / 256, by omega⟩
  rw [mem_blk1]
  intro a
  match a with
  | ⟨0, _⟩ =>
    show win1_3.index _ (0 : Fin 3) * 1 ≤ (i 0).val ∧ (i 0).val < win1_3.index _ (0 : Fin 3) * 1 + 1
    rw [a0]; show ((i 0).val * 64 + (i 2).val / 128 * 8 + (i 1).val / 256) / 64 * 1 ≤ _ ∧ _ < ((i 0).val * 64 + (i 2).val / 128 * 8 + (i 1).val / 256) / 64 * 1 + 1
    omega
  | ⟨1, _⟩ =>
    show win1_3.index _ (1 : Fin 3) * 256 ≤ (i 1).val ∧ (i 1).val < win1_3.index _ (1 : Fin 3) * 256 + 256
    rw [a1]; show ((i 0).val * 64 + (i 2).val / 128 * 8 + (i 1).val / 256) % 8 * 256 ≤ _ ∧ _ < ((i 0).val * 64 + (i 2).val / 128 * 8 + (i 1).val / 256) % 8 * 256 + 256
    omega
  | ⟨2, _⟩ =>
    show win1_3.index _ (2 : Fin 3) * 128 ≤ (i 2).val ∧ (i 2).val < win1_3.index _ (2 : Fin 3) * 128 + 128
    rw [a2]; show ((i 0).val * 64 + (i 2).val / 128 * 8 + (i 1).val / 256) / 8 % 8 * 128 ≤ _ ∧ _ < ((i 0).val * 64 + (i 2).val / 128 * 8 + (i 1).val / 256) / 8 % 8 * 128 + 128
    omega

/-- The attention region's output array after the run, for any entry contents `V`: `attn1` of the array it reads. -/
theorem arr1 (c : Dev nD) : (dat1 (F := Ideal) V c).arrAt 3 cfg1.N = attn1 (V c main_v8) :=
  (dat1 (F := Ideal) V c).arrAt_eq_of_cover 3 (attn1 (V c main_v8)) (fun t _ => flushed1_eq V c t) cover1

end Array

end Cert.KernelIdeal.HandValue

end
-- ==== Proof.Val.Bridge.lean ====
/-
  The kernel's arrangement of the score equals the specification's when the keys are real numbers.

  With a = ‖K_t‖², b = ‖K_s‖², c = ⟨K_t,K_s⟩ and the literal 2, the kernel forms ((2·c − a) − b)/8 and the
  specification (−((a + b) − 2·c))/8.  On the extended reals the two groupings can differ at infinities; when every
  key entry is a real number so are a, b, c (finite sums of products of reals), the literal 2 is a real number, and
  the identity (2c − a) − b = −((a + b) − 2c) holds in ℝ.  Everything downstream of the score (row maximum,
  exponentials, normaliser, quotient, weighted sum of the values) is the same function of the score on both sides.
-/
import proofs.«154070_j61375082660372_2_alg».proof.Proof.Val.KSpec
import proofs.«154070_j61375082660372_2_alg».proof.Proof.Ref.Finite

noncomputable section

open scoped BigOperators

namespace Cert.KernelIdeal.HandValue

open Idealize.ShloMosaic Idealize.ShloMosaic.ValueIdx
open Cert.ReferenceIdeal.RefValue (exists_real_sum)

/-- The word 0x40000000 denotes a real number (a normal number: its exponent field is neither all ones nor zero). -/
theorem two_real : ∃ r : ℝ, L2Attn.two = (r : EReal) := by
  unfold L2Attn.two Ideal.ofBits Ideal.ieee
  dsimp only
  rw [if_neg (by decide), if_neg (by decide)]
  exact ⟨_, rfl⟩

/-- (2c − a) − b = −((a + b) − 2c) for real numbers, read in the extended reals. -/
theorem regroup (τ a b c : ℝ) :
    (((τ : EReal) * (c : EReal) - (a : EReal)) - (b : EReal)) = -(((a : EReal) + (b : EReal)) - (τ : EReal) * (c : EReal)) := by
  rw [← EReal.coe_mul, ← EReal.coe_sub, ← EReal.coe_sub, ← EReal.coe_add, ← EReal.coe_sub, ← EReal.coe_neg]
  exact congrArg Real.toEReal (by ring)

section Head

variable (K : Fin 2048 → Fin 64 → EReal) (hK : ∀ t d, ∃ r : ℝ, K t d = (r : EReal))
include hK

/-- Inner products of real rows are real numbers. -/
theorem cross_real (t s : Fin 2048) : ∃ r : ℝ, L2Attn.cross K t s = (r : EReal) := by
  unfold L2Attn.cross
  refine exists_real_sum _ _ fun d _ => ?_
  obtain ⟨p, hp⟩ := hK t d
  obtain ⟨q, hq⟩ := hK s d
  exact ⟨p * q, by rw [hp, hq, EReal.coe_mul]⟩

/-- Squared norms of real rows are real numbers. -/
theorem sqn_real (t : Fin 2048) : ∃ r : ℝ, L2Attn.sqn K t = (r : EReal) := cross_real K hK t t

/-- Over real keys the kernel's score is the specification's. -/
theorem kscore_eq (t s : Fin 2048) : kscore K t s = L2Attn.score K t s := by
  obtain ⟨a, ha⟩ := sqn_real K hK t
  obtain ⟨b, hb⟩ := sqn_real K hK s
  obtain ⟨c, hc⟩ := cross_real K hK t s
  obtain ⟨τ, hτ⟩ := two_real
  unfold kscore L2Attn.score
  rw [ha, hb, hc, hτ, regroup]

/-- OVER REAL KEYS THE KERNEL'S HEAD IS THE SPECIFICATION'S. -/
theorem kHeadOut_eq (Vv : Fin 2048 → Fin 64 → EReal) : kHeadOut K Vv = L2Attn.headOut K Vv := by
  have hs : kscore K = L2Attn.score K := funext fun t => funext fun s => kscore_eq K hK t s
  funext t d
  unfold kHeadOut L2Attn.headOut kattn L2Attn.attn kdenom L2Attn.denom kexpo L2Attn.expo krowMax L2Attn.rowMax
  simp only [hs]

end Head

end Cert.KernelIdeal.HandValue

end
-- ==== Proof.Val.Final.lean ====
/-
  The three kernels composed: the program's result array is G of the four inputs.

  Reading back from the end: the result is the reshape of the last kernel's array, whose entry (r, e) is
  Σ_j z[r,j]·p[e,j] + β[e] with z the reshape of the attention kernel's array; that array's entry (b, t, j) is head
  j / 64's output at (t, j % 64), computed from the columns 64·(j/64) + d (keys) and 1024 + 64·(j/64) + d (values) of
  the reshaped first kernel's array; and that array's entry (b, t, e') is the joint projection of x at the column the
  weight's re-laying put at e', which for those two column families is exactly the key and the value column of the
  head.  The kernel's form of the score equals the reference's where the keys are real numbers.
-/
import proofs.«154070_j61375082660372_2_alg».proof.Proof.KI.Run
import proofs.«154070_j61375082660372_2_alg».proof.Proof.Val.Host
import proofs.«154070_j61375082660372_2_alg».proof.Proof.Val.HostIn
import proofs.«154070_j61375082660372_2_alg».proof.Proof.Val.HostOut
import proofs.«154070_j61375082660372_2_alg».proof.Proof.Val.Arr1
import proofs.«154070_j61375082660372_2_alg».proof.Proof.Val.Bridge
import proofs.«154070_j61375082660372_2_alg».proof.Proof.Ref.Finite
import proofs.«154070_j61375082660372_2_alg».proof.Proof.Spec

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ) (c : Dev nD)

/-- An array of extended reals, typed as such. -/
abbrev asE {S : Shape} (f : S.Idx → EReal) : S.Idx → EReal := f

/-- Where the weight's re-laying sends column e' of the first kernel's array: row 32·d + 16·k' + h of w for
    e' = 1024·k' + 64·h + d. -/
def relaid (e' : Fin 2048) : Fin 2048 := ⟨e'.val % 64 * 32 + e'.val / 1024 * 16 + e'.val / 64 % 16, by omega⟩

theorem relaid_keys (h : Fin 16) (d : Fin 64) (hlt : h.val * 64 + d.val < 2048) :
    relaid ⟨h.val * 64 + d.val, hlt⟩ = Cert.L2Attn.col 0 h d := by
  apply Fin.ext; show (h.val * 64 + d.val) % 64 * 32 + (h.val * 64 + d.val) / 1024 * 16 + (h.val * 64 + d.val) / 64 % 16 = d.val * 32 + (0 : Fin 2).val * 16 + h.val
  have := h.isLt; have := d.isLt; show _ = d.val * 32 + 0 * 16 + h.val; omega
theorem relaid_vals (h : Fin 16) (d : Fin 64) (hlt : 1024 + h.val * 64 + d.val < 2048) :
    relaid ⟨1024 + h.val * 64 + d.val, hlt⟩ = Cert.L2Attn.col 1 h d := by
  apply Fin.ext; show (1024 + h.val * 64 + d.val) % 64 * 32 + (1024 + h.val * 64 + d.val) / 1024 * 16 + (1024 + h.val * 64 + d.val) / 64 % 16 = d.val * 32 + (1 : Fin 2).val * 16 + h.val
  have := h.isLt; have := d.isLt; show _ = d.val * 32 + 1 * 16 + h.val; omega

/-- The first kernel's array, reshaped: entry (b, t, e') is the joint projection at the re-laid column. -/
theorem v8_proj (b : Fin 2) (t e' : Fin 2048) :
    (Hand.V3 m c main_v8 : S2x2048x2048.Idx → EReal) (ix3 b t e') = Cert.L2Attn.proj (xA m c) (wA m c) b t (relaid e') := by
  rw [v8_at, prod0_apply]
  have hrow : b.val * 2048 + t.val < 4096 := by have := b.isLt; have := t.isLt; omega
  show (∑ k : Fin 1024, asE (S := S4096x1024) (Hand.V1 m c main_v6) (ix2 (⟨b.val * 2048 + t.val, hrow⟩ : Fin 4096) k)
      * asE (S := S1024x2048) (Hand.V1 m c main_v4) (ix2 k e')) = ∑ k : Fin 1024, xA m c (ix3 b t k) * wA m c (ix2 (relaid e') k)
  refine Finset.sum_congr rfl fun k _ => ?_
  unfold asE
  rw [v6_at, v4_at]
  have h1 : (⟨(b.val * 2048 + t.val) / 2048, by omega⟩ : Fin 2) = b := Fin.ext (by show (b.val * 2048 + t.val) / 2048 = b.val; have := t.isLt; omega)
  have h2 : (⟨(b.val * 2048 + t.val) % 2048, Nat.mod_lt _ (by decide)⟩ : Fin 2048) = t := Fin.ext (by show (b.val * 2048 + t.val) % 2048 = t.val; have := t.isLt; omega)
  show xA m c (ix3 (⟨(b.val * 2048 + t.val) / 2048, _⟩ : Fin 2) (⟨(b.val * 2048 + t.val) % 2048, _⟩ : Fin 2048) k) * wA m c (ix2 (relaid e') k) = _
  rw [h1, h2]

/-- The attention kernel's array: entry (b, t, j) is head j / 64's output at (t, j % 64). -/
theorem v9_merged (hx : ∀ i, ∃ r : ℝ, xA m c i = (r : EReal)) (hw : ∀ i, ∃ r : ℝ, wA m c i = (r : EReal))
    (b : Fin 2) (t : Fin 2048) (j : Fin 1024) :
    ((dat1 (F := Ideal) (Hand.V3 m) c).arrAt 3 cfg1.N : S2x2048x1024.Idx → EReal) (ix3 b t j)
      = Cert.L2Attn.merged (Cert.L2Attn.proj (xA m c) (wA m c)) b t j := by
  rw [arr1, attn1_apply]
  have hj := j.isLt
  have hK : (fun (t' : Fin 2048) (d : Fin 64) => (Hand.V3 m c main_v8 : S2x2048x2048.Idx → EReal)
        (ix3 b t' (⟨j.val / 64 * 64 + d.val, by have := d.isLt; omega⟩ : Fin 2048)))
      = Cert.L2Attn.keys (Cert.L2Attn.proj (xA m c) (wA m c)) b ⟨j.val / 64, by omega⟩ := by
    funext t' d
    rw [v8_proj]
    unfold Cert.L2Attn.keys
    exact congrArg _ (relaid_keys ⟨j.val / 64, by omega⟩ d _)
  have hV : (fun (s : Fin 2048) (d : Fin 64) => (Hand.V3 m c main_v8 : S2x2048x2048.Idx → EReal)
        (ix3 b s (⟨1024 + j.val / 64 * 64 + d.val, by have := d.isLt; omega⟩ : Fin 2048)))
      = Cert.L2Attn.vals (Cert.L2Attn.proj (xA m c) (wA m c)) b ⟨j.val / 64, by omega⟩ := by
    funext s d
    rw [v8_proj]
    unfold Cert.L2Attn.vals
    exact congrArg _ (relaid_vals ⟨j.val / 64, by omega⟩ d _)
  rw [hK, hV, kHeadOut_eq (Cert.L2Attn.keys (Cert.L2Attn.proj (xA m c) (wA m c)) b ⟨j.val / 64, by omega⟩)
    (fun t' d => Cert.ReferenceIdeal.RefValue.proj_real (xA m c) (wA m c) hx hw b t' (Cert.L2Attn.col 0 ⟨j.val / 64, by omega⟩ d))]
  rfl

/-- The program's result array is G of the four inputs, where x and w hold real numbers. -/
theorem result_eq (hx : ∀ i, ∃ r : ℝ, xA m c i = (r : EReal)) (hw : ∀ i, ∃ r : ℝ, wA m c i = (r : EReal)) :
    (Hand.W7 m c (Proc.devRef .tc main_v15) : S2x2048x1024.Idx → EReal)
      = Cert.L2Attn.G (xA m c) (wA m c) (pA m c) (bA m c) := by
  funext i
  obtain ⟨b, t, e, rfl⟩ : ∃ (b : Fin 2) (t : Fin 2048) (e : Fin 1024), i = ix3 b t e := ⟨i 0, i 1, i 2, eq_ix3 i⟩
  rw [v15_at, prod2_apply]
  have hrow : b.val * 2048 + t.val < 4096 := by have := b.isLt; have := t.isLt; omega
  have h1 : (⟨(b.val * 2048 + t.val) / 2048, by omega⟩ : Fin 2) = b := Fin.ext (by show (b.val * 2048 + t.val) / 2048 = b.val; have := t.isLt; omega)
  have h2 : (⟨(b.val * 2048 + t.val) % 2048, Nat.mod_lt _ (by decide)⟩ : Fin 2048) = t := Fin.ext (by show (b.val * 2048 + t.val) % 2048 = t.val; have := t.isLt; omega)
  show (∑ k : Fin 1024, asE (S := S4096x1024) (Hand.V5 m c main_v10) (ix2 (⟨b.val * 2048 + t.val, hrow⟩ : Fin 4096) k)
        * asE (S := S1024x1024) (Hand.V5 m c main_v12) (ix2 k e)) + asE (S := S1x1024) (Hand.V5 m c main_v13) (ix2 (0 : Fin 1) e)
      = (∑ j : Fin 1024, Cert.L2Attn.merged (Cert.L2Attn.proj (xA m c) (wA m c)) b t j * pA m c (ix2 e j)) + bA m c (ix1 e)
  unfold asE
  rw [v13_at]
  refine congrArg (· + bA m c (ix1 e)) (Finset.sum_congr rfl fun j _ => ?_)
  rw [v10_at, v12_at]
  show asE (S := S2x2048x1024) ((dat1 (F := Ideal) (Hand.V3 m) c).arrAt 3 cfg1.N)
      (ix3 (⟨(b.val * 2048 + t.val) / 2048, _⟩ : Fin 2) (⟨(b.val * 2048 + t.val) % 2048, _⟩ : Fin 2048) j) * pA m c (ix2 e j) = _
  unfold asE
  rw [h1, h2, v9_merged m c hx hw]

end Cert.KernelIdeal.HandValue

end
-- ==== Proof.lean ====
/-
  The certificate: an attention block with squared-distance scores, as three kernels against a plain reference.

  Both programs compute G of Proof/Spec.lean: the joint projection of x, split per head into keys (which serve as
  queries) and values; per head, scores minus the squared distance of keys scaled by 1/8, a row-wise softmax, the
  weighted sum of the values; the heads side by side through the output projection, plus the bias.
  The kernel side re-lays the joint weight so that its projection comes out head-major, rounds its intermediates to a
  narrower format (the identity on extended reals) and writes the score as (2⟨K_t,K_s⟩ − ‖K_t‖²) − ‖K_s‖² where the
  reference writes −((‖K_t‖² + ‖K_s‖²) − 2⟨K_t,K_s⟩): equal where the keys are real numbers, which is where the
  precondition (every input finite) is used.
  The three frames are the runs with the results dropped; the kernel's rewriting changed nothing, so its
  idealization claim is trivial.
-/
import proofs.«154070_j61375082660372_2_alg».proof.Defs
import proofs.«154070_j61375082660372_2_alg».proof.Proof.Gen.Kernel
import proofs.«154070_j61375082660372_2_alg».proof.Proof.Gen.KernelIdeal
import proofs.«154070_j61375082660372_2_alg».proof.Proof.Gen.ReferenceIdeal
import proofs.«154070_j61375082660372_2_alg».proof.Proof.Gen.ReferenceIdeal.Run
import proofs.«154070_j61375082660372_2_alg».proof.Proof.Gen.ReferenceIdeal.Read
import proofs.«154070_j61375082660372_2_alg».proof.Proof.Gen.Pre_finite_inputs
import proofs.«154070_j61375082660372_2_alg».proof.Proof.KI.Run
import proofs.«154070_j61375082660372_2_alg».proof.Proof.KB.Run
import proofs.«154070_j61375082660372_2_alg».proof.Proof.Ref.RefIsG
import proofs.«154070_j61375082660372_2_alg».proof.Proof.Ref.FinitePre
import proofs.«154070_j61375082660372_2_alg».proof.Proof.Val.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

/-- From memories agreeing on the four inputs both programs end with the same result array, G of the inputs: the kernel
    side by its run and the composition of its three kernels (the inputs are real numbers by the precondition), the
    reference side by its run read one operation at a time. -/
theorem algebraic : Cert.algebraic_KernelIdeal_ReferenceIdeal := by
  intro m ρ m' ρ' hpre hagree
  refine ⟨fun c => Cert.L2Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Hand.run (F := Ideal) m ρ)
    obtain ⟨hx, hw, -, -⟩ := Cert.ReferenceIdeal.RefValue.finite_of_pre_KernelIdeal m hpre c
    exact ⟨(h c _ (Cert.KernelIdeal.Hand.mem_uc Cert.KernelIdeal.main_v15 (by decide))).trans (Cert.KernelIdeal.HandValue.result_eq m c hx hw),
      (h c _ (Cert.KernelIdeal.Hand.mem_uc Cert.KernelIdeal.main_arg0 (by decide))).trans (Cert.KernelIdeal.Hand.W7_main_arg0 m c),
      (h c _ (Cert.KernelIdeal.Hand.mem_uc Cert.KernelIdeal.main_arg1 (by decide))).trans (Cert.KernelIdeal.Hand.W7_main_arg1 m c),
      (h c _ (Cert.KernelIdeal.Hand.mem_uc Cert.KernelIdeal.main_arg2 (by decide))).trans (Cert.KernelIdeal.Hand.W7_main_arg2 m c),
      (h c _ (Cert.KernelIdeal.Hand.mem_uc Cert.KernelIdeal.main_arg3 (by decide))).trans (Cert.KernelIdeal.Hand.W7_main_arg3 m c)⟩
  · refine (θ_run Cert.ReferenceIdeal.defs _ _).mono (fun r h c => ⟨?_, (h c).2⟩) (Cert.ReferenceIdeal.Value.run (F := Ideal) m' ρ')
    rw [(h c).1, Cert.ReferenceIdeal.Read.val_main_v39_eq, Cert.ReferenceIdeal.RefValue.ref_is_G,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
